-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x224x224x32 : Shape := ⟨4, ![16, 224, 224, 32]⟩
abbrev S9216 : Shape := ⟨1, ![9216]⟩
abbrev S32 : Shape := ⟨1, ![32]⟩
abbrev S_ : Shape := ⟨0, ![]⟩

class Facts : Prop where
  bcast_S_S16x224x224x32 : S_.BroadcastsInDim S16x224x224x32 (![] : Fin 0 → Fin S16x224x224x32.rank)
  reducesTo_S16x224x224x32_S_d0_1_2_3 : S16x224x224x32.ReducesTo [0, 1, 2, 3] S_
  h_S_ : 0 < S_.numel
  bcast_S_S9216 : S_.BroadcastsInDim S9216 (![] : Fin 0 → Fin S9216.rank)
  reducesTo_S9216_S_d0 : S9216.ReducesTo [0] S_
  bcast_S_S32 : S_.BroadcastsInDim S32 (![] : Fin 0 → Fin S32.rank)
  reducesTo_S32_S_d0 : S32.ReducesTo [0] S_

variable [Facts]

def fn {F : FTy → Type} [FloatOps F] (main_arg0 : FVec F S16x224x224x32 .f32) (main_arg1 : FVec F S9216 .f32) (main_arg2 : FVec F S32 .f32) : IVec S_ 1 :=
  let main_v0 : FVec F S16x224x224x32 .f32 := Host.absf main_arg0
  let main_cst : FVec F S_ .f32 := constant S_ .f32 0x7F800000#32
  let main_v1 : FVec F S16x224x224x32 .f32 := broadcastInDim S16x224x224x32 ![] bcast_S_S16x224x224x32 main_cst
  let main_v2 : IVec S16x224x224x32 1 := cmpf .olt main_v0 main_v1
  let main_c : IVec S_ 1 := constantI S_ 1 1#1
  let main_v3 : IVec S_ 1 := (fun x v => Host.reduce IntOp.andi x v reducesTo_S16x224x224x32_S_d0_1_2_3 h_S_) main_v2 main_c
  let main_v4 : FVec F S9216 .f32 := Host.absf main_arg1
  let main_cst_0 : FVec F S_ .f32 := constant S_ .f32 0x7F800000#32
  let main_v5 : FVec F S9216 .f32 := broadcastInDim S9216 ![] bcast_S_S9216 main_cst_0
  let main_v6 : IVec S9216 1 := cmpf .olt main_v4 main_v5
  let main_c_1 : IVec S_ 1 := constantI S_ 1 1#1
  let main_v7 : IVec S_ 1 := (fun x v => Host.reduce IntOp.andi x v reducesTo_S9216_S_d0 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  main_v13
-- ==== Kernel.lean ====
abbrev S16x224x224x32 : Shape := ⟨4, ![16, 224, 224, 32]⟩
abbrev S9216 : Shape := ⟨1, ![9216]⟩
abbrev S32 : Shape := ⟨1, ![32]⟩
abbrev S32x3x3x32 : Shape := ⟨4, ![32, 3, 3, 32]⟩
abbrev S3x3x32x32 : Shape := ⟨4, ![3, 3, 32, 32]⟩
abbrev S16x222x222x32 : Shape := ⟨4, ![16, 222, 222, 32]⟩
abbrev S1x6x224x32 : Shape := ⟨4, ![1, 6, 224, 32]⟩
abbrev S1x1x224x32 : Shape := ⟨4, ![1, 1, 224, 32]⟩
abbrev S1x6x222x32 : Shape := ⟨4, ![1, 6, 222, 32]⟩
abbrev S6x224x32 : Shape := ⟨3, ![6, 224, 32]⟩
abbrev S1x224x32 : Shape := ⟨3, ![1, 224, 32]⟩
abbrev S8x224x32 : Shape := ⟨3, ![8, 224, 32]⟩
abbrev S6x222x32 : Shape := ⟨3, ![6, 222, 32]⟩
abbrev S1332x32 : Shape := ⟨2, ![1332, 32]⟩
abbrev S1x1x32x32 : Shape := ⟨4, ![1, 1, 32, 32]⟩
abbrev S32x32 : Shape := ⟨2, ![32, 32]⟩
abbrev S1x1x32 : Shape := ⟨3, ![1, 1, 32]⟩

abbrev nBuf : Space → Nat
  | .hbm => 7
  | .vmem => 10
  | .smem => 0
  | _ => 0

abbrev bufTy : (tb : Table) → Fin (tcTables nBuf tb) → BufTy
  | .hbm, ⟨0, _⟩ => ⟨S16x224x224x32, .f32⟩
  | .hbm, ⟨1, _⟩ => ⟨S9216, .f32⟩
  | .hbm, ⟨2, _⟩ => ⟨S32, .f32⟩
  | .hbm, ⟨3, _⟩ => ⟨S32x3x3x32, .f32⟩
  | .hbm, ⟨4, _⟩ => ⟨S3x3x32x32, .f32⟩
  | .hbm, ⟨5, _⟩ => ⟨S3x3x32x32, .bf16⟩
  | .hbm, ⟨6, _⟩ => ⟨S16x222x222x32, .f32⟩
  | .local _ .vmem, ⟨0, _⟩ => ⟨S1x6x224x32, .f32⟩
  | .local _ .vmem, ⟨1, _⟩ => ⟨S1x6x224x32, .f32⟩
  | .local _ .vmem, ⟨2, _⟩ => ⟨S1x1x224x32, .f32⟩
  | .local _ .vmem, ⟨3, _⟩ => ⟨S1x1x224x32, .f32⟩
  | .local _ .vmem, ⟨4, _⟩ => ⟨S1x1x224x32, .f32⟩
  | .local _ .vmem, ⟨5, _⟩ => ⟨S1x1x224x32, .f32⟩
  | .local _ .vmem, ⟨6, _⟩ => ⟨S3x3x32x32, .bf16⟩
  | .local _ .vmem, ⟨7, _⟩ => ⟨S32, .f32⟩
  | .local _ .vmem, ⟨8, _⟩ => ⟨S1x6x222x32, .f32⟩
  | .local _ .vmem, ⟨9, _⟩ => ⟨S1x6x222x32, .f32⟩
  | _, _ => ⟨S16x224x224x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 37], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c6_i32 : BitVec 32 := 6#32
  let v1 : BitVec 32 := Scalar.muli v0 c6_i32
  let c0_i32 : BitVec 32 := 0#32
  let c0_i32_0 : BitVec 32 := 0#32
  let c0_i32_1 : BitVec 32 := 0#32
  ![arg0.toNat, v1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c6_i32 : BitVec 32 := 6#32
  let v1 : BitVec 32 := Scalar.muli v0 c6_i32
  let c1_i32_0 : BitVec 32 := 1#32
  let v2 : BitVec 32 := Scalar.addi v1 c1_i32_0
  let c0_i32 : BitVec 32 := 0#32
  let c0_i32_1 : BitVec 32 := 0#32
  let c0_i32_2 : BitVec 32 := 0#32
  ![arg0.toNat, v2.toNat, c0_i32.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x6x224x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x224x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x224x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S3x3x32x32 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x6x222x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S9216_S32x3x3x32 : S9216.ShapeCasts S32x3x3x32
  transposes_S32x3x3x32_S3x3x32x32_1_2_3_0 : S32x3x3x32.Transposes [1, 2, 3, 0] S3x3x32x32
  bitsLt_bf16_f32 : FTy.bits .bf16 < FTy.bits .f32
  inb_S1x6x224x32_S1x6x224x32_0_0_0_0 : ∀ a, (![0, 0, 0, 0] : Fin 4 → Nat) a + S1x6x224x32.size a ≤ S1x6x224x32.size a
  h_S1x6x224x32 : 0 < S1x6x224x32.numel
  shapeCasts_S1x6x224x32_S6x224x32 : S1x6x224x32.ShapeCasts S6x224x32
  inb_S1x1x224x32_S1x1x224x32_0_0_0_0 : ∀ a, (![0, 0, 0, 0] : Fin 4 → Nat) a + S1x1x224x32.size a ≤ S1x1x224x32.size a
  h_S1x1x224x32 : 0 < S1x1x224x32.numel
  shapeCasts_S1x1x224x32_S1x224x32 : S1x1x224x32.ShapeCasts S1x224x32
  concatenates_S6x224x32_S1x224x32_S1x224x32_S8x224x32_d0 : Shape.Concatenates [S6x224x32, S1x224x32, S1x224x32] S8x224x32 0
  slices_S8x224x32_o0_0_0_S6x222x32 : S8x224x32.Slices ![0, 0, 0] S6x222x32
  shapeCasts_S6x222x32_S1332x32 : S6x222x32.ShapeCasts S1332x32
  inb_S3x3x32x32_S1x1x32x32_0_0_0_0 : ∀ a, (![0, 0, 0, 0] : Fin 4 → Nat) a + S1x1x32x32.size a ≤ S3x3x32x32.size a
  h_S1x1x32x32 : 0 < S1x1x32x32.numel
  shapeCasts_S1x1x32x32_S32x32 : S1x1x32x32.ShapeCasts S32x32
  shapeCasts_S1332x32_S6x222x32 : S1332x32.ShapeCasts S6x222x32
  slices_S8x224x32_o0_1_0_S6x222x32 : S8x224x32.Slices ![0, 1, 0] S6x222x32
  inb_S3x3x32x32_S1x1x32x32_0_1_0_0 : ∀ a, (![0, 1, 0, 0] : Fin 4 → Nat) a + S1x1x32x32.size a ≤ S3x3x32x32.size a
  slices_S8x224x32_o0_2_0_S6x222x32 : S8x224x32.Slices ![0, 2, 0] S6x222x32
  inb_S3x3x32x32_S1x1x32x32_0_2_0_0 : ∀ a, (![0, 2, 0, 0] : Fin 4 → Nat) a + S1x1x32x32.size a ≤ S3x3x32x32.size a
  slices_S8x224x32_o1_0_0_S6x222x32 : S8x224x32.Slices ![1, 0, 0] S6x222x32
  inb_S3x3x32x32_S1x1x32x32_1_0_0_0 : ∀ a, (![1, 0, 0, 0] : Fin 4 → Nat) a + S1x1x32x32.size a ≤ S3x3x32x32.size a
  slices_S8x224x32_o1_1_0_S6x222x32 : S8x224x32.Slices ![1, 1, 0] S6x222x32
  inb_S3x3x32x32_S1x1x32x32_1_1_0_0 : ∀ a, (![1, 1, 0, 0] : Fin 4 → Nat) a + S1x1x32x32.size a ≤ S3x3x32x32.size a
  slices_S8x224x32_o1_2_0_S6x222x32 : S8x224x32.Slices ![1, 2, 0] S6x222x32
  inb_S3x3x32x32_S1x1x32x32_1_2_0_0 : ∀ a, (![1, 2, 0, 0] : Fin 4 → Nat) a + S1x1x32x32.size a ≤ S3x3x32x32.size a
  slices_S8x224x32_o2_0_0_S6x222x32 : S8x224x32.Slices ![2, 0, 0] S6x222x32
  inb_S3x3x32x32_S1x1x32x32_2_0_0_0 : ∀ a, (![2, 0, 0, 0] : Fin 4 → Nat) a + S1x1x32x32.size a ≤ S3x3x32x32.size a
  slices_S8x224x32_o2_1_0_S6x222x32 : S8x224x32.Slices ![2, 1, 0] S6x222x32
  inb_S3x3x32x32_S1x1x32x32_2_1_0_0 : ∀ a, (![2, 1, 0, 0] : Fin 4 → Nat) a + S1x1x32x32.size a ≤ S3x3x32x32.size a
  slices_S8x224x32_o2_2_0_S6x222x32 : S8x224x32.Slices ![2, 2, 0] S6x222x32
  inb_S3x3x32x32_S1x1x32x32_2_2_0_0 : ∀ a, (![2, 2, 0, 0] : Fin 4 → Nat) a + S1x1x32x32.size a ≤ S3x3x32x32.size a
  inb_S32_S32_0 : ∀ a, (![0] : Fin 1 → Nat) a + S32.size a ≤ S32.size a
  h_S32 : 0 < S32.numel
  shapeCasts_S32_S1x1x32 : S32.ShapeCasts S1x1x32
  broadcasts_S1x1x32_S6x222x32 : S1x1x32.Broadcasts S6x222x32
  inb_S1x6x222x32_S1x6x222x32_0_0_0_0 : ∀ a, (![0, 0, 0, 0] : Fin 4 → Nat) a + S1x6x222x32.size a ≤ S1x6x222x32.size a
  h_S1x6x222x32 : 0 < S1x6x222x32.numel
  shapeCasts_S1x6x222x32_S6x222x32 : S1x6x222x32.ShapeCasts S6x222x32
  shapeCasts_S6x222x32_S1x6x222x32 : S6x222x32.ShapeCasts S1x6x222x32
  dot_S1332x32_S32x32_S1332x32_1_0_0_1_n_n_wf : DotDims.WF S1332x32 S32x32 S1332x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1x6x224x32.size a < S16x224x224x32.size a
  hwx0_0 : ∀ i : grid0.Coords, EltTy.bits .f32 = 32 ∨ (Rect.unit (s := S16x224x224x32) (fun a => cc0_transform_0 i a * S1x6x224x32.size a) (fun a => (Pipeline.Clip.of (cc0_transform_0 i a) (S1x6x224x32.size a) (S16x224x224x32.size a)).extent (S1x6x224x32.size a)) fun a => Pipeline.Clip.inb (Pipeline.Clip.ok_of (hstart0_0 i a))).WholeWords (EltTy.packing .f32)
  hwxs0_0 : ∀ i : grid0.Coords, EltTy.bits .f32 = 32 ∨ (Rect.unit (s := S1x6x224x32) (fun _ => 0) (fun a => (Pipeline.Clip.of (cc0_transform_0 i a) (S1x6x224x32.size a) (S16x224x224x32.size a)).extent (S1x6x224x32.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x224x32.size a ≤ S16x224x224x32.size a
  hwx0_1 : ∀ i : grid0.Coords, EltTy.bits .f32 = 32 ∨ (Rect.block (s := S16x224x224x32) S1x1x224x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x224x32.size a ≤ S16x224x224x32.size a
  hwx0_2 : ∀ i : grid0.Coords, EltTy.bits .f32 = 32 ∨ (Rect.block (s := S16x224x224x32) S1x1x224x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x3x32x32.size a ≤ S3x3x32x32.size a
  hwx0_3 : ∀ i : grid0.Coords, EltTy.bits .bf16 = 32 ∨ (Rect.block (s := S3x3x32x32) S3x3x32x32.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32.size a ≤ S32.size a
  hwx0_4 : ∀ i : grid0.Coords, EltTy.bits .f32 = 32 ∨ (Rect.block (s := S32) S32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x6x222x32.size a ≤ S16x222x222x32.size a
  hwx0_5 : ∀ i : grid0.Coords, EltTy.bits .f32 = 32 ∨ (Rect.block (s := S16x222x222x32) S1x6x222x32.size (cc0_transform_5 i) (hinb0_5 i)).WholeWords (EltTy.packing .f32)

variable [Facts₀]

def dot_S1332x32_S32x32_S1332x32_1_0_0_1_n_n : DotDims S1332x32 S32x32 S1332x32 where
  lhsContracting := [1]
  rhsContracting := [0]
  lhsNonContracting := [0]
  rhsNonContracting := [1]
  lhsBatch := []
  rhsBatch := []
  wf := dot_S1332x32_S32x32_S1332x32_1_0_0_1_n_n_wf

abbrev win0_0 : Pipeline.Window sig grid0 :=
  Pipeline.Window.ofSpecClip (Memref.whole main_arg0) S1x6x224x32.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg0) S1x1x224x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x1x224x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S3x3x32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x6x222x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x224x224x32 : Shape := ⟨4, ![16, 224, 224, 32]⟩
abbrev S9216 : Shape := ⟨1, ![9216]⟩
abbrev S32 : Shape := ⟨1, ![32]⟩
abbrev S16x222x222x32 : Shape := ⟨4, ![16, 222, 222, 32]⟩
abbrev S16x222x222x288 : Shape := ⟨4, ![16, 222, 222, 288]⟩
abbrev S32x288 : Shape := ⟨2, ![32, 288]⟩
abbrev S1x1x1x32 : Shape := ⟨4, ![1, 1, 1, 32]⟩

abbrev nBuf : Space → Nat
  | .hbm => 18
  | .vmem => 0
  | .smem => 0
  | _ => 0

abbrev bufTy : (tb : Table) → Fin (tcTables nBuf tb) → BufTy
  | .hbm, ⟨0, _⟩ => ⟨S16x224x224x32, .f32⟩
  | .hbm, ⟨1, _⟩ => ⟨S9216, .f32⟩
  | .hbm, ⟨2, _⟩ => ⟨S32, .f32⟩
  | .hbm, ⟨3, _⟩ => ⟨S16x222x222x32, .f32⟩
  | .hbm, ⟨4, _⟩ => ⟨S16x222x222x32, .f32⟩
  | .hbm, ⟨5, _⟩ => ⟨S16x222x222x32, .f32⟩
  | .hbm, ⟨6, _⟩ => ⟨S16x222x222x32, .f32⟩
  | .hbm, ⟨7, _⟩ => ⟨S16x222x222x32, .f32⟩
  | .hbm, ⟨8, _⟩ => ⟨S16x222x222x32, .f32⟩
  | .hbm, ⟨9, _⟩ => ⟨S16x222x222x32, .f32⟩
  | .hbm, ⟨10, _⟩ => ⟨S16x222x222x32, .f32⟩
  | .hbm, ⟨11, _⟩ => ⟨S16x222x222x32, .f32⟩
  | .hbm, ⟨12, _⟩ => ⟨S16x222x222x288, .f32⟩
  | .hbm, ⟨13, _⟩ => ⟨S32x288, .f32⟩
  | .hbm, ⟨14, _⟩ => ⟨S16x222x222x32, .f32⟩
  | .hbm, ⟨15, _⟩ => ⟨S1x1x1x32, .f32⟩
  | .hbm, ⟨16, _⟩ => ⟨S16x222x222x32, .f32⟩
  | .hbm, ⟨17, _⟩ => ⟨S16x222x222x32, .f32⟩
  | _, _ => ⟨S16x224x224x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]

class Facts₀ : Prop where
  slices_S16x224x224x32_S16x222x222x32_0_0_0_0 : S16x224x224x32.Slices ![0, 0, 0, 0] S16x222x222x32
  slices_S16x224x224x32_S16x222x222x32_0_0_1_0 : S16x224x224x32.Slices ![0, 0, 1, 0] S16x222x222x32
  slices_S16x224x224x32_S16x222x222x32_0_0_2_0 : S16x224x224x32.Slices ![0, 0, 2, 0] S16x222x222x32
  slices_S16x224x224x32_S16x222x222x32_0_1_0_0 : S16x224x224x32.Slices ![0, 1, 0, 0] S16x222x222x32
  slices_S16x224x224x32_S16x222x222x32_0_1_1_0 : S16x224x224x32.Slices ![0, 1, 1, 0] S16x222x222x32
  slices_S16x224x224x32_S16x222x222x32_0_1_2_0 : S16x224x224x32.Slices ![0, 1, 2, 0] S16x222x222x32
  slices_S16x224x224x32_S16x222x222x32_0_2_0_0 : S16x224x224x32.Slices ![0, 2, 0, 0] S16x222x222x32
  slices_S16x224x224x32_S16x222x222x32_0_2_1_0 : S16x224x224x32.Slices ![0, 2, 1, 0] S16x222x222x32
  slices_S16x224x224x32_S16x222x222x32_0_2_2_0 : S16x224x224x32.Slices ![0, 2, 2, 0] S16x222x222x32
  concatenates_S16x222x222x32_S16x222x222x32_S16x222x222x32_S16x222x222x32_S16x222x222x32_S16x222x222x32_S16x222x222x32_S16x222x222x32_S16x222x222x32_S16x222x222x288_d3 : Shape.Concatenates [S16x222x222x32, S16x222x222x32, S16x222x222x32, S16x222x222x32, S16x222x222x32, S16x222x222x32, S16x222x222x32, S16x222x222x32, S16x222x222x32] S16x222x222x288 3
  shapeCasts_S9216_S32x288 : S9216.ShapeCasts S32x288
  bcast_S32_S1x1x1x32_3 : S32.BroadcastsInDim S1x1x1x32 (![3] : Fin 1 → Fin S1x1x1x32.rank)
  bcast_S1x1x1x32_S16x222x222x32_0_1_2_3 : S1x1x1x32.BroadcastsInDim S16x222x222x32 (![0, 1, 2, 3] : Fin 4 → Fin S16x222x222x32.rank)
  dot_S16x222x222x288_S32x288_S16x222x222x32_3_1_012_0_n_n_wf : DotDims.WF S16x222x222x288 S32x288 S16x222x222x32 [3] [1] [0, 1, 2] [0] [] []

variable [Facts₀]

def dot_S16x222x222x288_S32x288_S16x222x222x32_3_1_012_0_n_n : DotDims S16x222x222x288 S32x288 S16x222x222x32 where
  lhsContracting := [3]
  rhsContracting := [1]
  lhsNonContracting := [0, 1, 2]
  rhsNonContracting := [0]
  lhsBatch := []
  rhsBatch := []
  wf := dot_S16x222x222x288_S32x288_S16x222x222x32_3_1_012_0_n_n_wf

class Facts : Prop extends Facts₀ where

variable [Facts]
-- ==== Proof.BitsBody.lean ====
/-
  The kernel body at one grid point, as a triple.

  The kernel is a 3×3 valid convolution tiled over (batch, row tile): at a point its body is handed six staging
  buffers — a block of six input rows, the two single rows below it (all three cut from ONE input array), the whole
  [3, 3, 32, 32] weight table, the bias, and the output block of six rows — and stores into the last the value
  `outBlock` of the first five: the eight rows stacked, nine [1332, 32] × [32, 32] products (one per stencil tap)
  added one after the other onto zero, then the bias. Here: the arrays as the region finds them (the weight table
  comes from three host operations on the flat weight before the region), @main up to the region, and the triple —
  the five inputs are left as found and the output buffer ends at `outBlock`, whatever it held.
-/
import proofs.«178870_j77816217469233_2_alg».proof.Proof.Gen.Kernel.Launch
import proofs.«178870_j77816217469233_2_alg».proof.Proof.Gen.Kernel.Skeleton
import proofs.«178870_j77816217469233_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.ConvBody

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the three host operations
    (reshape, transpose, change of format) that make the weight table. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is those three operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- None of the three operations writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, Finset.mem_singleton]
    repeat' apply And.intro
    all_goals exact StableHlo.devRef_ne_of_ne (by decide)))

/-! ## What the body stores -/

abbrev rMain : Rect S1x6x224x32 := Rect.unit (s := S1x6x224x32) ![0, 0, 0, 0] S1x6x224x32.size inb_S1x6x224x32_S1x6x224x32_0_0_0_0
abbrev rRow : Rect S1x1x224x32 := Rect.unit (s := S1x1x224x32) ![0, 0, 0, 0] S1x1x224x32.size inb_S1x1x224x32_S1x1x224x32_0_0_0_0
abbrev rW00 : Rect S3x3x32x32 := Rect.unit (s := S3x3x32x32) ![0, 0, 0, 0] S1x1x32x32.size inb_S3x3x32x32_S1x1x32x32_0_0_0_0
abbrev rW01 : Rect S3x3x32x32 := Rect.unit (s := S3x3x32x32) ![0, 1, 0, 0] S1x1x32x32.size inb_S3x3x32x32_S1x1x32x32_0_1_0_0
abbrev rW02 : Rect S3x3x32x32 := Rect.unit (s := S3x3x32x32) ![0, 2, 0, 0] S1x1x32x32.size inb_S3x3x32x32_S1x1x32x32_0_2_0_0
abbrev rW10 : Rect S3x3x32x32 := Rect.unit (s := S3x3x32x32) ![1, 0, 0, 0] S1x1x32x32.size inb_S3x3x32x32_S1x1x32x32_1_0_0_0
abbrev rW11 : Rect S3x3x32x32 := Rect.unit (s := S3x3x32x32) ![1, 1, 0, 0] S1x1x32x32.size inb_S3x3x32x32_S1x1x32x32_1_1_0_0
abbrev rW12 : Rect S3x3x32x32 := Rect.unit (s := S3x3x32x32) ![1, 2, 0, 0] S1x1x32x32.size inb_S3x3x32x32_S1x1x32x32_1_2_0_0
abbrev rW20 : Rect S3x3x32x32 := Rect.unit (s := S3x3x32x32) ![2, 0, 0, 0] S1x1x32x32.size inb_S3x3x32x32_S1x1x32x32_2_0_0_0
abbrev rW21 : Rect S3x3x32x32 := Rect.unit (s := S3x3x32x32) ![2, 1, 0, 0] S1x1x32x32.size inb_S3x3x32x32_S1x1x32x32_2_1_0_0
abbrev rW22 : Rect S3x3x32x32 := Rect.unit (s := S3x3x32x32) ![2, 2, 0, 0] S1x1x32x32.size inb_S3x3x32x32_S1x1x32x32_2_2_0_0
abbrev rBias : Rect S32 := Rect.unit (s := S32) ![0] S32.size inb_S32_S32_0
abbrev rOut : Rect S1x6x222x32 := Rect.unit (s := S1x6x222x32) ![0, 0, 0, 0] S1x6x222x32.size inb_S1x6x222x32_S1x6x222x32_0_0_0_0

/-- The eight input rows of a point, stacked: the six-row block and the two rows below it. -/
def rows8 (x0 : Vec F S1x6x224x32 .f32) (x1 x2 : Vec F S1x1x224x32 .f32) : FVec F S8x224x32 .bf16 :=
  k0_pay2 (View.ld x0 rMain) (View.ld x1 rRow) (View.ld x2 rRow)

/-- The value the body stores: the nine taps' products accumulated from zero over the stacked rows, plus the bias. -/
def outVal (x0 : Vec F S1x6x224x32 .f32) (x1 x2 : Vec F S1x1x224x32 .f32) (x3 : Vec F S3x3x32x32 .bf16) (x4 : Vec F S32 .f32) :
    FVec F S1x6x222x32 .f32 :=
  k0_pay1 (rows8 x0 x1 x2)
    (k0_pay4 (rows8 x0 x1 x2)
      (k0_pay3 (View.ld x0 rMain) (View.ld x1 rRow) (View.ld x2 rRow) (View.ld x3 rW00) (View.ld x3 rW01) (View.ld x3 rW02))
      (View.ld x3 rW10) (View.ld x3 rW11) (View.ld x3 rW12) (View.ld x3 rW20) (View.ld x3 rW21))
    (View.ld x3 rW22) (View.ld x4 rBias)

/-- The output buffer after the body: its one store covers it. -/
def outBlock (x0 : Vec F S1x6x224x32 .f32) (x1 x2 : Vec F S1x1x224x32 .f32) (x3 : Vec F S3x3x32x32 .bf16) (x4 : Vec F S32 .f32) :
    Vec F S1x6x222x32 .f32 :=
  View.canon [⟨rOut, outVal x0 x1 x2 x3 x4⟩]

theorem coverOut (p0 : Vec F S1x6x222x32 .f32) (y : S1x6x222x32.Idx) :
    ∃ pc ∈ ([⟨rOut, p0⟩] : List (View.Piece (Elt F) S1x6x222x32 .f32)), y ∈ pc.1.set :=
  View.cover_of_tiled [⟨rOut, p0⟩] S1x6x222x32.size (by rfl) y

/-! ## The body's triple -/

set_option maxHeartbeats 4000000 in
/-- On whole staging buffers, the five inputs' at contents `x0 … x4` and the output's at anything, the body runs to
    the continuation with the inputs' as they were and the output's at `outBlock` of them. -/
theorem sound_kernel (c : Dev nD) (E : Set ℕ) (i : grid0.Coords)
    (arg2 : Memref sig .tc .vmem S1x6x224x32 .f32) (harg2 : arg2.IsWhole) (arg3 : Memref sig .tc .vmem S1x1x224x32 .f32) (harg3 : arg3.IsWhole)
    (arg4 : Memref sig .tc .vmem S1x1x224x32 .f32) (harg4 : arg4.IsWhole) (arg5 : Memref sig .tc .vmem S3x3x32x32 .bf16) (harg5 : arg5.IsWhole)
    (arg6 : Memref sig .tc .vmem S32 .f32) (harg6 : arg6.IsWhole) (arg7 : Memref sig .tc .vmem S1x6x222x32 .f32) (harg7 : arg7.IsWhole)
    (x0 : Vec F S1x6x224x32 .f32) (x1 x2 : Vec F S1x1x224x32 .f32) (x3 : Vec F S3x3x32x32 .bf16) (x4 : Vec F S32 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (outBlock x0 x1 x2 x3 x4)) -∗ K ⟨⟩))
      ⊢ wp frame (wpE (defs₀ (F := F)) Variants.none c none) E
          (cc0__conv_kernel i arg2 harg2 arg3 harg3 arg4 harg4 arg5 harg5 arg6 harg6 arg7 harg7) K := by
  simp only [cc0__conv_kernel_eq_skeleton, k0_part1_eq_skeleton, k0_part2_eq_skeleton]; unfold cc0__conv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (coverOut _)

end Cert.Kernel.ConvBody

end
-- ==== Proof.BitsRun.lean ====
/-
  The run of the convolution kernel's region: proof data, the body at every grid point, and the launch.

  The grid is (batch, row tile) = 16 × 37 points. Three of the six windows read ONE array, the input: a block of six
  rows and the two single rows below it. The launch therefore deals the input array's full share among the three
  (a half and two quarters); each is only ever read. The six-row window's blocks do not tile the 224 rows (224 is
  no multiple of 6), so its transfers are cut at the array's end where a block overhangs; on this grid no block
  does — the last tile starts at row 216 — so every fetch fills the whole staging buffer with the block. The weight
  table and the bias have a constant block index: fetched once, found again at every point. The output window's
  blocks of six rows tile its 222 rows, each written back at its point.

  After the body at a point the five input buffers hold their blocks and the output buffer `outBlock` of them
  (`BitsBody`). Nothing is carried between points, the kernel names no scratch and no semaphore: the
  region's invariant is empty, and the buffers that are no window's array bypass the region and are read back
  unchanged.
-/
import proofs.«178870_j77816217469233_2_alg».proof.Proof.BitsBody
import Idealize.ShloMosaic.Lib.Pipeline.Kit
import Idealize.ShloMosaic.Lib.Pipeline.Frame

set_option maxRecDepth 16384

noncomputable section

namespace Cert.Kernel.ConvRun

open Cert.Kernel Cert.Kernel.Gen Cert.Kernel.ConvBody
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- No six-row block overhangs the input on this grid: the cut is empty at every point. -/
theorem unclipped0 : ∀ t : Fin cfg0.N, win0_0.clipped (grid0.coords t) = false :=
  (by decide +kernel : ∀ t : Fin grid0.N, win0_0.clipped (grid0.coords t) = false)

/-- So every entry of the six-row staging buffer is one the fetch moves. -/
theorem moved0 (t : Fin cfg0.N) (j : S1x6x224x32.Idx) : win0_0.moved (grid0.coords t) j = true :=
  (win0_0.moved_iff _ j).mpr fun a => by
    have h := (win0_0.clipped_eq_false_iff (grid0.coords t)).mp (unclipped0 t) a
    have := (j a).isLt; unfold Window.xsize; rw [h]; exact this

/-- and filling the buffer with a block leaves nothing of what it held. -/
theorem fill0_indep (t : Fin cfg0.N) (d d' : S1x6x224x32.Idx → Elt F .f32) (g : (win0_0.xblock (grid0.coords t)).Idx → Elt F .f32) :
    win0_0.fill (grid0.coords t) d g = win0_0.fill (grid0.coords t) d' g := by
  funext j; unfold Window.fill; rw [dif_pos (moved0 t j), dif_pos (moved0 t j)]

/-- The six-row staging buffer once its block has landed (the filler is never seen). -/
def stg0 (c : Dev nD) (t : Fin cfg0.N) : S1x6x224x32.Idx → Elt F .f32 :=
  win0_0.fill (grid0.coords t) (fun _ => Scalar.ofBits .f32 0#32) (iblk m c 0 t)

/-! ## The proof data -/

/-- On core `c`: the arrays as the region finds them; after the body at point `t` each input buffer at its block and
    the output buffer at `outBlock` of them; no invariant; nothing owed; the input array's share dealt among its
    three windows. -/
def dats (_ : Fin 1) (c : Dev nD) : Dat τ (Elt F) Unit ℕ (UR sig nD τ) ℕ cfg0 c where
  A w := V m c (Pipeline.arrRef spec0 w)
  after w t := match w with
    | ⟨0, _⟩ => stg0 m c t
    | ⟨1, _⟩ => iblk m c 1 t
    | ⟨2, _⟩ => iblk m c 2 t
    | ⟨3, _⟩ => iblk m c 3 t
    | ⟨4, _⟩ => iblk m c 4 t
    | ⟨5, _⟩ => outBlock (stg0 m c t) (iblk m c 1 t) (iblk m c 2 t) (iblk m c 3 t) (iblk m c 4 t)
  Φ _ := iprop(emp)
  q w := match w with
    | ⟨0, _⟩ => fullShare.left
    | ⟨1, _⟩ => fullShare.right.left
    | ⟨2, _⟩ => fullShare.right.right
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = stg0 m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) :
    (dats m 0 c).after 5 t = outBlock (stg0 m c t) (iblk m c 1 t) (iblk m c 2 t) (iblk m c 3 t) (iblk m c 4 t) := by dsimp only [dats]

/-! ## What the body finds -/

/-- The six-row buffer is fetched at every point and the fetch fills all of it. -/
theorem before_0 (c : Dev nD) (t : Fin cfg0.N) (d) : (dats m 0 c).before 0 t d = stg0 m c t := by
  unfold Dat.before; rw [if_pos (fetch0_0 t)]
  unfold Dat.fetched Dat.blockOf stg0 iblk; rw [A_eq]
  exact fill0_indep t _ _ _

/-- The other inputs hold their block at every point, fetched there or not (a block index that did not move). -/
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns: the six-row buffer stated on the part its transfers move (all of it, here). -/
def bodyPost (c : Dev nD) (t : Fin cfg0.N) : sProp 𝕄 :=
  iprop((dats m 0 c).Φ t.succ ∗ (dats m 0 c).owesAt () t.succ
    ∗ (∃ d, owns (c : Thread nD τ) (st0_0 t) fullShare
        ((cfg0.win 0).fill (cfg0.grid.coords t) d ((cfg0.win 0).cut (cfg0.grid.coords t) ((dats m 0 c).after 0 t))))
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (stg0 m c t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]
  · iexists (fun _ => Scalar.ofBits .f32 0#32)
    have e : (cfg0.win 0).fill (cfg0.grid.coords t) (fun _ => Scalar.ofBits .f32 0#32) ((cfg0.win 0).cut (cfg0.grid.coords t) (stg0 m c t)) = stg0 m c t := by
      show win0_0.fill (grid0.coords t) _ (win0_0.cut (grid0.coords t) (stg0 m c t)) = _
      exact (fill0_indep t _ (stg0 m c t) _).trans (win0_0.fill_cut (grid0.coords t) (stg0 m c t))
    rw [e]; iexact H0
  isplitl [H1]; · iexact H1
  isplitl [H2]; · iexact H2
  isplitl [H3]; · iexact H3
  isplitl [H4]; · iexact H4
  iexact H5

/-- The body obligation, at every point (the six-row window in its loose form). -/
theorem body_obligation (c : Dev nD) : BodyObligationLoose (dats (F := F) m 0 c) (defs₀ (F := F)) Variants.none () Set.univ := fun t => by
  rw [bigSep_W0, bigSep_W0]
  exact sound_body m c t

/-! ## The launch -/

/-- The launch element: every staging cell's owner at round zero and a token for every transfer the pipeline issues. -/
def u₀ : UR sig nD τ := initOf (Pipeline.cells cfgs cellOf_inj) (Pipeline.launchToks cfgs cellOf_inj)

/-- The four distinct buffers behind the six windows' arrays. -/
theorem arrRefs_eq : Finset.univ.image (Pipeline.arrRef spec0) = ([main_arg0, main_v2, main_arg2, main_v3] : List (Ref sig .tc)).toFinset := by
  decide

/-- The input array's full share is a half for the six-row window and a quarter for each single-row window; the
    weight table, the bias and the output are each one window's, whole. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [bigSep_eq_bigSepL_of_eq _ arrRefs_eq (by decide), bigSep_W0]
  have e0 : (((cfg0.win 0).arr.view.loc (c : Thread nD τ)) ↦[(cfg0.win 0).arr.view.set]{(dats m 0 c).share 0} (dats m 0 c).arrAt 0 0 : sProp 𝕄)
      = (((c : Thread nD τ).loc main_arg0) ↦{fullShare.left} V m c main_arg0) := by
    rw [(arr_whole0 0).set_eq_univ]; rfl
  have e1 : (((cfg0.win 1).arr.view.loc (c : Thread nD τ)) ↦[(cfg0.win 1).arr.view.set]{(dats m 0 c).share 1} (dats m 0 c).arrAt 1 0 : sProp 𝕄)
      = (((c : Thread nD τ).loc main_arg0) ↦{fullShare.right.left} V m c main_arg0) := by
    rw [(arr_whole0 1).set_eq_univ]; rfl
  have e2 : (((cfg0.win 2).arr.view.loc (c : Thread nD τ)) ↦[(cfg0.win 2).arr.view.set]{(dats m 0 c).share 2} (dats m 0 c).arrAt 2 0 : sProp 𝕄)
      = (((c : Thread nD τ).loc main_arg0) ↦{fullShare.right.right} V m c main_arg0) := by
    rw [(arr_whole0 2).set_eq_univ]; rfl
  have e3 : (((cfg0.win 3).arr.view.loc (c : Thread nD τ)) ↦[(cfg0.win 3).arr.view.set]{(dats m 0 c).share 3} (dats m 0 c).arrAt 3 0 : sProp 𝕄)
      = (((c : Thread nD τ).loc main_v2) ↦{fullShare} V m c main_v2) := by
    rw [(arr_whole0 3).set_eq_univ]; rfl
  have e4 : (((cfg0.win 4).arr.view.loc (c : Thread nD τ)) ↦[(cfg0.win 4).arr.view.set]{(dats m 0 c).share 4} (dats m 0 c).arrAt 4 0 : sProp 𝕄)
      = (((c : Thread nD τ).loc main_arg2) ↦{fullShare} V m c main_arg2) := by
    rw [(arr_whole0 4).set_eq_univ]; rfl
  have e5 : (((cfg0.win 5).arr.view.loc (c : Thread nD τ)) ↦[(cfg0.win 5).arr.view.set]{(dats m 0 c).share 5} (dats m 0 c).arrAt 5 0 : sProp 𝕄)
      = (((c : Thread nD τ).loc main_v3) ↦{fullShare} V m c main_v3) := by
    rw [(arr_whole0 5).set_eq_univ]; rfl
  rw [e0, e1, e2, e3, e4, e5]
  refine (show iprop((((c : Thread nD τ).loc main_arg0) ↦{fullShare} V m c main_arg0) ∗ (((c : Thread nD τ).loc main_v2) ↦{fullShare} V m c main_v2)
      ∗ (((c : Thread nD τ).loc main_arg2) ↦{fullShare} V m c main_arg2) ∗ (((c : Thread nD τ).loc main_v3) ↦{fullShare} V m c main_v3)) ⊢ _ from ?_)
  iintro ⟨Ha0, Hv2, Ha2, Hv3⟩
  ihave Ha0 := (pointsTo_share (PosShare.mem_left_op_right fullShare)).1 $$ Ha0
  icases Ha0 with ⟨Hl, Hr⟩
  ihave Hr := (pointsTo_share (PosShare.mem_left_op_right fullShare.right)).1 $$ Hr
  icases Hr with ⟨Hrl, Hrr⟩
  isplitl [Hl]; · iexact Hl
  isplitl [Hrl]; · iexact Hrl
  isplitl [Hrr]; · iexact Hrr
  isplitl [Hv2]; · iexact Hv2
  isplitl [Ha2]; · iexact Ha2
  iexact Hv3

set_option backward.isDefEq.respectTransparency.types false in
/-- At the compiled mesh, for any values, from any memory with zero counters: every weakly fair execution of @main
    terminates, every array of the pipeline ends at what the write-backs make of the proof data, and every other
    unscoped buffer as the region found it. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := body_obligation m) (hne := block_pos0) (harr := arr_whole0) (hstage := stage_whole0)
    (howed := fun _ _ => rfl) (u₀ := u₀) (hu₀ := BI.Entails.refl _)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun _ => by rw [scopedRest0_eq]; iintro ⟨-, -⟩; iempintro)
    (hout := fun _ => by rw [scopedRest0_eq]; iintro -; isplitr <;> iempintro)
    (QY := fun c s => ∀ b ∈ Pipeline.restRefs sig spec0, s.mem ((c : Thread nD τ).loc b) = V m c b)
    (hY := fun c s' => by
      iintro ⟨-, HU, HSI⟩
      unfold Pipeline.unscopedRest
      imodintro
      iapply (pointsTo_read_all (Pipeline.restRefs sig spec0) (fun b => (c : Thread nD τ).loc b) (V m c) s')
      isplitl [HU] <;> iassumption)
    (hQ := fun s h c => ⟨(h c).1, (h c).2⟩)

/-- info: 'Cert.Kernel.ConvRun.run_main' depends on axioms: [propext, Classical.choice, Quot.sound] -/
#guard_msgs in #print axioms run_main

/-! ## The frame -/

/-- The three argument arrays end as launched: the input and the bias are arrays the pipeline only reads, the flat
    weight bypasses the region, and no host operation before the region writes any of them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats m 0 c).arrAt_in 0 rfl _).trans ((A_eq m c 0).trans (V_main_arg0 m c))),
     ((h c).2 main_arg1 (Pipeline.mem_restRefs_of main_arg1 rfl (by decide))).trans (V_main_arg1 m c),
     ((h c).1 4).trans (((dats m 0 c).arrAt_in 4 rfl _).trans ((A_eq m c 4).trans (V_main_arg2 m c)))⟩) (run_main m ρ)

end Cert.Kernel.ConvRun

end
-- ==== Proof.IdealBody.lean ====
/-
  The kernel body at one grid point, as a triple.

  The kernel is a 3×3 valid convolution tiled over (batch, row tile): at a point its body is handed six staging
  buffers — a block of six input rows, the two single rows below it (all three cut from ONE input array), the whole
  [3, 3, 32, 32] weight table, the bias, and the output block of six rows — and stores into the last the value
  `outBlock` of the first five: the eight rows stacked, nine [1332, 32] × [32, 32] products (one per stencil tap)
  added one after the other onto zero, then the bias. Here: the arrays as the region finds them (the weight table
  comes from three host operations on the flat weight before the region), @main up to the region, and the triple —
  the five inputs are left as found and the output buffer ends at `outBlock`, whatever it held.
-/
import proofs.«178870_j77816217469233_2_alg».proof.Proof.Gen.KernelIdeal.Launch
import proofs.«178870_j77816217469233_2_alg».proof.Proof.Gen.KernelIdeal.Skeleton
import proofs.«178870_j77816217469233_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.ConvBody

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the three host operations
    (reshape, transpose, change of format) that make the weight table. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is those three operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- None of the three operations writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, Finset.mem_singleton]
    repeat' apply And.intro
    all_goals exact StableHlo.devRef_ne_of_ne (by decide)))

/-! ## What the body stores -/

abbrev rMain : Rect S1x6x224x32 := Rect.unit (s := S1x6x224x32) ![0, 0, 0, 0] S1x6x224x32.size inb_S1x6x224x32_S1x6x224x32_0_0_0_0
abbrev rRow : Rect S1x1x224x32 := Rect.unit (s := S1x1x224x32) ![0, 0, 0, 0] S1x1x224x32.size inb_S1x1x224x32_S1x1x224x32_0_0_0_0
abbrev rW00 : Rect S3x3x32x32 := Rect.unit (s := S3x3x32x32) ![0, 0, 0, 0] S1x1x32x32.size inb_S3x3x32x32_S1x1x32x32_0_0_0_0
abbrev rW01 : Rect S3x3x32x32 := Rect.unit (s := S3x3x32x32) ![0, 1, 0, 0] S1x1x32x32.size inb_S3x3x32x32_S1x1x32x32_0_1_0_0
abbrev rW02 : Rect S3x3x32x32 := Rect.unit (s := S3x3x32x32) ![0, 2, 0, 0] S1x1x32x32.size inb_S3x3x32x32_S1x1x32x32_0_2_0_0
abbrev rW10 : Rect S3x3x32x32 := Rect.unit (s := S3x3x32x32) ![1, 0, 0, 0] S1x1x32x32.size inb_S3x3x32x32_S1x1x32x32_1_0_0_0
abbrev rW11 : Rect S3x3x32x32 := Rect.unit (s := S3x3x32x32) ![1, 1, 0, 0] S1x1x32x32.size inb_S3x3x32x32_S1x1x32x32_1_1_0_0
abbrev rW12 : Rect S3x3x32x32 := Rect.unit (s := S3x3x32x32) ![1, 2, 0, 0] S1x1x32x32.size inb_S3x3x32x32_S1x1x32x32_1_2_0_0
abbrev rW20 : Rect S3x3x32x32 := Rect.unit (s := S3x3x32x32) ![2, 0, 0, 0] S1x1x32x32.size inb_S3x3x32x32_S1x1x32x32_2_0_0_0
abbrev rW21 : Rect S3x3x32x32 := Rect.unit (s := S3x3x32x32) ![2, 1, 0, 0] S1x1x32x32.size inb_S3x3x32x32_S1x1x32x32_2_1_0_0
abbrev rW22 : Rect S3x3x32x32 := Rect.unit (s := S3x3x32x32) ![2, 2, 0, 0] S1x1x32x32.size inb_S3x3x32x32_S1x1x32x32_2_2_0_0
abbrev rBias : Rect S32 := Rect.unit (s := S32) ![0] S32.size inb_S32_S32_0
abbrev rOut : Rect S1x6x222x32 := Rect.unit (s := S1x6x222x32) ![0, 0, 0, 0] S1x6x222x32.size inb_S1x6x222x32_S1x6x222x32_0_0_0_0

/-- The eight input rows of a point, stacked: the six-row block and the two rows below it. -/
def rows8 (x0 : Vec F S1x6x224x32 .f32) (x1 x2 : Vec F S1x1x224x32 .f32) : FVec F S8x224x32 .bf16 :=
  k0_pay2 (View.ld x0 rMain) (View.ld x1 rRow) (View.ld x2 rRow)

/-- The value the body stores: the nine taps' products accumulated from zero over the stacked rows, plus the bias. -/
def outVal (x0 : Vec F S1x6x224x32 .f32) (x1 x2 : Vec F S1x1x224x32 .f32) (x3 : Vec F S3x3x32x32 .bf16) (x4 : Vec F S32 .f32) :
    FVec F S1x6x222x32 .f32 :=
  k0_pay1 (rows8 x0 x1 x2)
    (k0_pay4 (rows8 x0 x1 x2)
      (k0_pay3 (View.ld x0 rMain) (View.ld x1 rRow) (View.ld x2 rRow) (View.ld x3 rW00) (View.ld x3 rW01) (View.ld x3 rW02))
      (View.ld x3 rW10) (View.ld x3 rW11) (View.ld x3 rW12) (View.ld x3 rW20) (View.ld x3 rW21))
    (View.ld x3 rW22) (View.ld x4 rBias)

/-- The output buffer after the body: its one store covers it. -/
def outBlock (x0 : Vec F S1x6x224x32 .f32) (x1 x2 : Vec F S1x1x224x32 .f32) (x3 : Vec F S3x3x32x32 .bf16) (x4 : Vec F S32 .f32) :
    Vec F S1x6x222x32 .f32 :=
  View.canon [⟨rOut, outVal x0 x1 x2 x3 x4⟩]

theorem coverOut (p0 : Vec F S1x6x222x32 .f32) (y : S1x6x222x32.Idx) :
    ∃ pc ∈ ([⟨rOut, p0⟩] : List (View.Piece (Elt F) S1x6x222x32 .f32)), y ∈ pc.1.set :=
  View.cover_of_tiled [⟨rOut, p0⟩] S1x6x222x32.size (by rfl) y

/-! ## The body's triple -/

set_option maxHeartbeats 4000000 in
/-- On whole staging buffers, the five inputs' at contents `x0 … x4` and the output's at anything, the body runs to
    the continuation with the inputs' as they were and the output's at `outBlock` of them. -/
theorem sound_kernel (c : Dev nD) (E : Set ℕ) (i : grid0.Coords)
    (arg2 : Memref sig .tc .vmem S1x6x224x32 .f32) (harg2 : arg2.IsWhole) (arg3 : Memref sig .tc .vmem S1x1x224x32 .f32) (harg3 : arg3.IsWhole)
    (arg4 : Memref sig .tc .vmem S1x1x224x32 .f32) (harg4 : arg4.IsWhole) (arg5 : Memref sig .tc .vmem S3x3x32x32 .bf16) (harg5 : arg5.IsWhole)
    (arg6 : Memref sig .tc .vmem S32 .f32) (harg6 : arg6.IsWhole) (arg7 : Memref sig .tc .vmem S1x6x222x32 .f32) (harg7 : arg7.IsWhole)
    (x0 : Vec F S1x6x224x32 .f32) (x1 x2 : Vec F S1x1x224x32 .f32) (x3 : Vec F S3x3x32x32 .bf16) (x4 : Vec F S32 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (outBlock x0 x1 x2 x3 x4)) -∗ K ⟨⟩))
      ⊢ wp frame (wpE (defs₀ (F := F)) Variants.none c none) E
          (cc0__conv_kernel i arg2 harg2 arg3 harg3 arg4 harg4 arg5 harg5 arg6 harg6 arg7 harg7) K := by
  simp only [cc0__conv_kernel_eq_skeleton, k0_part1_eq_skeleton, k0_part2_eq_skeleton]; unfold cc0__conv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (coverOut _)

end Cert.KernelIdeal.ConvBody

end
-- ==== Proof.IdealRun.lean ====
/-
  The run of the convolution kernel's region: proof data, the body at every grid point, and the launch.

  The grid is (batch, row tile) = 16 × 37 points. Three of the six windows read ONE array, the input: a block of six
  rows and the two single rows below it. The launch therefore deals the input array's full share among the three
  (a half and two quarters); each is only ever read. The six-row window's blocks do not tile the 224 rows (224 is
  no multiple of 6), so its transfers are cut at the array's end where a block overhangs; on this grid no block
  does — the last tile starts at row 216 — so every fetch fills the whole staging buffer with the block. The weight
  table and the bias have a constant block index: fetched once, found again at every point. The output window's
  blocks of six rows tile its 222 rows, each written back at its point.

  After the body at a point the five input buffers hold their blocks and the output buffer `outBlock` of them
  (`IdealBody`). Nothing is carried between points, the kernel names no scratch and no semaphore: the
  region's invariant is empty, and the buffers that are no window's array bypass the region and are read back
  unchanged.
-/
import proofs.«178870_j77816217469233_2_alg».proof.Proof.IdealBody
import Idealize.ShloMosaic.Lib.Pipeline.Kit
import Idealize.ShloMosaic.Lib.Pipeline.Frame

set_option maxRecDepth 16384

noncomputable section

namespace Cert.KernelIdeal.ConvRun

open Cert.KernelIdeal Cert.KernelIdeal.Gen Cert.KernelIdeal.ConvBody
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- No six-row block overhangs the input on this grid: the cut is empty at every point. -/
theorem unclipped0 : ∀ t : Fin cfg0.N, win0_0.clipped (grid0.coords t) = false :=
  (by decide +kernel : ∀ t : Fin grid0.N, win0_0.clipped (grid0.coords t) = false)

/-- So every entry of the six-row staging buffer is one the fetch moves. -/
theorem moved0 (t : Fin cfg0.N) (j : S1x6x224x32.Idx) : win0_0.moved (grid0.coords t) j = true :=
  (win0_0.moved_iff _ j).mpr fun a => by
    have h := (win0_0.clipped_eq_false_iff (grid0.coords t)).mp (unclipped0 t) a
    have := (j a).isLt; unfold Window.xsize; rw [h]; exact this

/-- and filling the buffer with a block leaves nothing of what it held. -/
theorem fill0_indep (t : Fin cfg0.N) (d d' : S1x6x224x32.Idx → Elt F .f32) (g : (win0_0.xblock (grid0.coords t)).Idx → Elt F .f32) :
    win0_0.fill (grid0.coords t) d g = win0_0.fill (grid0.coords t) d' g := by
  funext j; unfold Window.fill; rw [dif_pos (moved0 t j), dif_pos (moved0 t j)]

/-- The six-row staging buffer once its block has landed (the filler is never seen). -/
def stg0 (c : Dev nD) (t : Fin cfg0.N) : S1x6x224x32.Idx → Elt F .f32 :=
  win0_0.fill (grid0.coords t) (fun _ => Scalar.ofBits .f32 0#32) (iblk m c 0 t)

/-! ## The proof data -/

/-- On core `c`: the arrays as the region finds them; after the body at point `t` each input buffer at its block and
    the output buffer at `outBlock` of them; no invariant; nothing owed; the input array's share dealt among its
    three windows. -/
def dats (_ : Fin 1) (c : Dev nD) : Dat τ (Elt F) Unit ℕ (UR sig nD τ) ℕ cfg0 c where
  A w := V m c (Pipeline.arrRef spec0 w)
  after w t := match w with
    | ⟨0, _⟩ => stg0 m c t
    | ⟨1, _⟩ => iblk m c 1 t
    | ⟨2, _⟩ => iblk m c 2 t
    | ⟨3, _⟩ => iblk m c 3 t
    | ⟨4, _⟩ => iblk m c 4 t
    | ⟨5, _⟩ => outBlock (stg0 m c t) (iblk m c 1 t) (iblk m c 2 t) (iblk m c 3 t) (iblk m c 4 t)
  Φ _ := iprop(emp)
  q w := match w with
    | ⟨0, _⟩ => fullShare.left
    | ⟨1, _⟩ => fullShare.right.left
    | ⟨2, _⟩ => fullShare.right.right
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = stg0 m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) :
    (dats m 0 c).after 5 t = outBlock (stg0 m c t) (iblk m c 1 t) (iblk m c 2 t) (iblk m c 3 t) (iblk m c 4 t) := by dsimp only [dats]

/-! ## What the body finds -/

/-- The six-row buffer is fetched at every point and the fetch fills all of it. -/
theorem before_0 (c : Dev nD) (t : Fin cfg0.N) (d) : (dats m 0 c).before 0 t d = stg0 m c t := by
  unfold Dat.before; rw [if_pos (fetch0_0 t)]
  unfold Dat.fetched Dat.blockOf stg0 iblk; rw [A_eq]
  exact fill0_indep t _ _ _

/-- The other inputs hold their block at every point, fetched there or not (a block index that did not move). -/
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns: the six-row buffer stated on the part its transfers move (all of it, here). -/
def bodyPost (c : Dev nD) (t : Fin cfg0.N) : sProp 𝕄 :=
  iprop((dats m 0 c).Φ t.succ ∗ (dats m 0 c).owesAt () t.succ
    ∗ (∃ d, owns (c : Thread nD τ) (st0_0 t) fullShare
        ((cfg0.win 0).fill (cfg0.grid.coords t) d ((cfg0.win 0).cut (cfg0.grid.coords t) ((dats m 0 c).after 0 t))))
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (stg0 m c t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]
  · iexists (fun _ => Scalar.ofBits .f32 0#32)
    have e : (cfg0.win 0).fill (cfg0.grid.coords t) (fun _ => Scalar.ofBits .f32 0#32) ((cfg0.win 0).cut (cfg0.grid.coords t) (stg0 m c t)) = stg0 m c t := by
      show win0_0.fill (grid0.coords t) _ (win0_0.cut (grid0.coords t) (stg0 m c t)) = _
      exact (fill0_indep t _ (stg0 m c t) _).trans (win0_0.fill_cut (grid0.coords t) (stg0 m c t))
    rw [e]; iexact H0
  isplitl [H1]; · iexact H1
  isplitl [H2]; · iexact H2
  isplitl [H3]; · iexact H3
  isplitl [H4]; · iexact H4
  iexact H5

/-- The body obligation, at every point (the six-row window in its loose form). -/
theorem body_obligation (c : Dev nD) : BodyObligationLoose (dats (F := F) m 0 c) (defs₀ (F := F)) Variants.none () Set.univ := fun t => by
  rw [bigSep_W0, bigSep_W0]
  exact sound_body m c t

/-! ## The launch -/

/-- The launch element: every staging cell's owner at round zero and a token for every transfer the pipeline issues. -/
def u₀ : UR sig nD τ := initOf (Pipeline.cells cfgs cellOf_inj) (Pipeline.launchToks cfgs cellOf_inj)

/-- The four distinct buffers behind the six windows' arrays. -/
theorem arrRefs_eq : Finset.univ.image (Pipeline.arrRef spec0) = ([main_arg0, main_v2, main_arg2, main_v3] : List (Ref sig .tc)).toFinset := by
  decide

/-- The input array's full share is a half for the six-row window and a quarter for each single-row window; the
    weight table, the bias and the output are each one window's, whole. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [bigSep_eq_bigSepL_of_eq _ arrRefs_eq (by decide), bigSep_W0]
  have e0 : (((cfg0.win 0).arr.view.loc (c : Thread nD τ)) ↦[(cfg0.win 0).arr.view.set]{(dats m 0 c).share 0} (dats m 0 c).arrAt 0 0 : sProp 𝕄)
      = (((c : Thread nD τ).loc main_arg0) ↦{fullShare.left} V m c main_arg0) := by
    rw [(arr_whole0 0).set_eq_univ]; rfl
  have e1 : (((cfg0.win 1).arr.view.loc (c : Thread nD τ)) ↦[(cfg0.win 1).arr.view.set]{(dats m 0 c).share 1} (dats m 0 c).arrAt 1 0 : sProp 𝕄)
      = (((c : Thread nD τ).loc main_arg0) ↦{fullShare.right.left} V m c main_arg0) := by
    rw [(arr_whole0 1).set_eq_univ]; rfl
  have e2 : (((cfg0.win 2).arr.view.loc (c : Thread nD τ)) ↦[(cfg0.win 2).arr.view.set]{(dats m 0 c).share 2} (dats m 0 c).arrAt 2 0 : sProp 𝕄)
      = (((c : Thread nD τ).loc main_arg0) ↦{fullShare.right.right} V m c main_arg0) := by
    rw [(arr_whole0 2).set_eq_univ]; rfl
  have e3 : (((cfg0.win 3).arr.view.loc (c : Thread nD τ)) ↦[(cfg0.win 3).arr.view.set]{(dats m 0 c).share 3} (dats m 0 c).arrAt 3 0 : sProp 𝕄)
      = (((c : Thread nD τ).loc main_v2) ↦{fullShare} V m c main_v2) := by
    rw [(arr_whole0 3).set_eq_univ]; rfl
  have e4 : (((cfg0.win 4).arr.view.loc (c : Thread nD τ)) ↦[(cfg0.win 4).arr.view.set]{(dats m 0 c).share 4} (dats m 0 c).arrAt 4 0 : sProp 𝕄)
      = (((c : Thread nD τ).loc main_arg2) ↦{fullShare} V m c main_arg2) := by
    rw [(arr_whole0 4).set_eq_univ]; rfl
  have e5 : (((cfg0.win 5).arr.view.loc (c : Thread nD τ)) ↦[(cfg0.win 5).arr.view.set]{(dats m 0 c).share 5} (dats m 0 c).arrAt 5 0 : sProp 𝕄)
      = (((c : Thread nD τ).loc main_v3) ↦{fullShare} V m c main_v3) := by
    rw [(arr_whole0 5).set_eq_univ]; rfl
  rw [e0, e1, e2, e3, e4, e5]
  refine (show iprop((((c : Thread nD τ).loc main_arg0) ↦{fullShare} V m c main_arg0) ∗ (((c : Thread nD τ).loc main_v2) ↦{fullShare} V m c main_v2)
      ∗ (((c : Thread nD τ).loc main_arg2) ↦{fullShare} V m c main_arg2) ∗ (((c : Thread nD τ).loc main_v3) ↦{fullShare} V m c main_v3)) ⊢ _ from ?_)
  iintro ⟨Ha0, Hv2, Ha2, Hv3⟩
  ihave Ha0 := (pointsTo_share (PosShare.mem_left_op_right fullShare)).1 $$ Ha0
  icases Ha0 with ⟨Hl, Hr⟩
  ihave Hr := (pointsTo_share (PosShare.mem_left_op_right fullShare.right)).1 $$ Hr
  icases Hr with ⟨Hrl, Hrr⟩
  isplitl [Hl]; · iexact Hl
  isplitl [Hrl]; · iexact Hrl
  isplitl [Hrr]; · iexact Hrr
  isplitl [Hv2]; · iexact Hv2
  isplitl [Ha2]; · iexact Ha2
  iexact Hv3

set_option backward.isDefEq.respectTransparency.types false in
/-- At the compiled mesh, for any values, from any memory with zero counters: every weakly fair execution of @main
    terminates, every array of the pipeline ends at what the write-backs make of the proof data, and every other
    unscoped buffer as the region found it. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := body_obligation m) (hne := block_pos0) (harr := arr_whole0) (hstage := stage_whole0)
    (howed := fun _ _ => rfl) (u₀ := u₀) (hu₀ := BI.Entails.refl _)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun _ => by rw [scopedRest0_eq]; iintro ⟨-, -⟩; iempintro)
    (hout := fun _ => by rw [scopedRest0_eq]; iintro -; isplitr <;> iempintro)
    (QY := fun c s => ∀ b ∈ Pipeline.restRefs sig spec0, s.mem ((c : Thread nD τ).loc b) = V m c b)
    (hY := fun c s' => by
      iintro ⟨-, HU, HSI⟩
      unfold Pipeline.unscopedRest
      imodintro
      iapply (pointsTo_read_all (Pipeline.restRefs sig spec0) (fun b => (c : Thread nD τ).loc b) (V m c) s')
      isplitl [HU] <;> iassumption)
    (hQ := fun s h c => ⟨(h c).1, (h c).2⟩)

/-- info: 'Cert.KernelIdeal.ConvRun.run_main' depends on axioms: [propext, Classical.choice, Quot.sound] -/
#guard_msgs in #print axioms run_main

/-! ## The frame -/

/-- The three argument arrays end as launched: the input and the bias are arrays the pipeline only reads, the flat
    weight bypasses the region, and no host operation before the region writes any of them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats m 0 c).arrAt_in 0 rfl _).trans ((A_eq m c 0).trans (V_main_arg0 m c))),
     ((h c).2 main_arg1 (Pipeline.mem_restRefs_of main_arg1 rfl (by decide))).trans (V_main_arg1 m c),
     ((h c).1 4).trans (((dats m 0 c).arrAt_in 4 rfl _).trans ((A_eq m c 4).trans (V_main_arg2 m c)))⟩) (run_main m ρ)

end Cert.KernelIdeal.ConvRun

end
-- ==== Proof.LibHostRead.lean ====
/-
  Small layout operations of a host program, read at an index, generic in the sizes.

  * A vector `[a]` broadcast to a column `[a, 1]` reads the vector at the row (`bcastCol_apply`); a scalar broadcast
    to any shape reads the scalar (`bcastScalar_apply`); a vector `[b]` broadcast to a row `[1, b]` and then to
    `[a, b]` reads the vector at the column (`bcastRow_apply`).
  * Row `r` of a two-row array `[2, E]`, sliced out as `[1, E]` and reshaped to `[E]`, reads the array at `(r, e)`
    (`rowSlice_apply`).
  * The plain product of an `A × K` by a `K × B` matrix over the extended reals, read at `(i, j)`, is the sum over
    the contracted coordinate of the products of the entries: for the host's product (`plainDot_apply`) and for the
    kernel's product accumulated into a zero constant (`plainMatmul_zero_apply`).
-/
import Idealize.ShloMosaic.Lib.ValueIdx
import Idealize.ShloMosaic.Lib.Pipeline.Value
import Idealize.ShloMosaic.Lib.ValueLayout
import Idealize.ShloMosaic.Lib.StackMember
import Idealize.ShloMosaic.PureOps.Ideal.Laws

noncomputable section

open scoped BigOperators

namespace Cert.LibHR

open Idealize.ShloMosaic Idealize.ShloMosaic.ValueIdx

/-! ## Broadcasts -/

/-- A vector broadcast to a one-column matrix reads the vector at the row. -/
theorem bcastCol_apply {α : Type} {a : Nat} (h : (⟨1, ![a]⟩ : Shape).BroadcastsInDim ⟨2, ![a, 1]⟩ ![0])
    (x : (⟨1, ![a]⟩ : Shape).Idx → α) (i : Fin a) (u : Fin 1) :
    broadcastInDim ⟨2, ![a, 1]⟩ ![0] h x (ix2 i u) = x (ix1 i) :=
  broadcastInDim_apply _ h x (ix2 i u) (ix1 i) (fun b => match b with
    | ⟨0, _⟩ => by
      show i.val = if a = 1 then 0 else i.val
      split
      · have := i.isLt; omega
      · rfl)

/-- A scalar broadcast to any shape reads the scalar. -/
theorem bcastScalar_apply {α : Type} {t : Shape} (h : (⟨0, ![]⟩ : Shape).BroadcastsInDim t ![])
    (x : (⟨0, ![]⟩ : Shape).Idx → α) (j : t.Idx) : broadcastInDim t ![] h x j = x ix0 :=
  broadcastInDim_apply _ h x j ix0 (fun b => b.elim0)

/-- A vector broadcast to a one-row matrix and then down the rows reads the vector at the column. -/
theorem bcastRow_apply {α : Type} {a b : Nat} (h1 : (⟨1, ![b]⟩ : Shape).BroadcastsInDim ⟨2, ![1, b]⟩ ![1])
    (h2 : (⟨2, ![1, b]⟩ : Shape).BroadcastsInDim ⟨2, ![a, b]⟩ ![0, 1]) (x : (⟨1, ![b]⟩ : Shape).Idx → α)
    (i : Fin a) (j : Fin b) :
    broadcastInDim ⟨2, ![a, b]⟩ ![0, 1] h2 (broadcastInDim ⟨2, ![1, b]⟩ ![1] h1 x) (ix2 i j) = x (ix1 j) := by
  refine (broadcastInDim_apply _ h2 _ (ix2 i j) (ix2 (0 : Fin 1) j) (fun c => match c with
    | ⟨0, _⟩ => by
      show 0 = if (1 : Nat) = 1 then 0 else i.val
      rw [if_pos rfl]
    | ⟨1, _⟩ => by
      show j.val = if b = 1 then 0 else j.val
      split
      · have := j.isLt; omega
      · rfl)).trans ?_
  exact broadcastInDim_apply _ h1 x (ix2 (0 : Fin 1) j) (ix1 j) (fun c => match c with
    | ⟨0, _⟩ => by
      show j.val = if b = 1 then 0 else j.val
      split
      · have := j.isLt; omega
      · rfl)

/-! ## One row of a two-row array -/

/-- Row `r` of a `[2, E]` array, sliced out and reshaped to `[E]`, reads the array at `(r, e)`. -/
theorem rowSlice_apply {α : Type} {E : Nat} (r : Fin 2) (x : (⟨2, ![2, E]⟩ : Shape).Idx → α)
    (hs : (⟨2, ![2, E]⟩ : Shape).Slices ![r.val, 0] ⟨2, ![1, E]⟩)
    (hc : (⟨2, ![1, E]⟩ : Shape).ShapeCasts ⟨1, ![E]⟩) (e : Fin E) :
    shapeCast ⟨1, ![E]⟩ (extractStridedSlice ⟨2, ![1, E]⟩ ![r.val, 0] x hs) hc (ix1 e) = x (ix2 r e) := by
  refine (shapeCast_apply _ hc (ix1 e) (ix2 (0 : Fin 1) e) (by
    rw [Shape.rowMajor_val_two, Shape.rowMajor_val_one]
    show 0 * E + e.val = e.val
    omega)).trans ?_
  exact extractStridedSlice_apply ![r.val, 0] x hs (ix2 (0 : Fin 1) e) (ix2 r e) (fun c => match c with
    | ⟨0, _⟩ => by show r.val = r.val + 0; omega
    | ⟨1, _⟩ => by show e.val = 0 + e.val; omega)

/-! ## A plain matrix product -/

/-- The dimension numbers of the plain product of an `A × K` by a `K × B` matrix: the left operand's columns
    contracted with the right operand's rows, no batch axes. -/
abbrev plainDotDims (A K B : Nat)
    (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ where
  lhsContracting := [1]
  rhsContracting := [0]
  lhsNonContracting := [0]
  rhsNonContracting := [1]
  lhsBatch := []
  rhsBatch := []
  wf := wf

/-- They are the library's plain dimension numbers. -/
theorem plainDotDims_eq (A K B : Nat)
    (wf : DotDims.WF ⟨2, ![A, K]⟩ ⟨2, ![K, B]⟩ ⟨2, ![A, B]⟩ [1] [0] [0] [1] [] []) :
    plainDotDims A K B wf = DotDims.plain A K B := rfl

/-- THE HOST'S PLAIN PRODUCT READ AT `(i, j)`, over the extended reals: the sum over the contracted coordinate of
    the products of the entries. -/
theorem plainDot_apply {φ₁ φ₂ : FTy} (A K B : Nat)
    (wf : DotDims.WF ⟨2, ![A, K]⟩ ⟨2, ![K, B]⟩ ⟨2, ![A, B]⟩ [1] [0] [0] [1] [] [])
    (l : (⟨2, ![A, K]⟩ : Shape).Idx → EReal) (r : (⟨2, ![K, B]⟩ : Shape).Idx → EReal) (i : Fin A) (j : Fin B) :
    Host.dotGeneral (F := Ideal) (φ₁ := φ₁) (φ₂ := φ₂) (plainDotDims A K B wf) none l r (ix2 i j)
      = ∑ k : Fin K, l (ix2 i k) * r (ix2 k j) :=
  StackMember.dotGeneral_plain_apply (φ₁ := φ₁) (φ₂ := φ₂) none l r i j

/-- THE KERNEL'S PLAIN PRODUCT INTO A ZERO ACCUMULATOR READ AT `(i, j)`, over the extended reals: the same sum. -/
theorem plainMatmul_zero_apply {φ₁ φ₂ : FTy} (A K B : Nat)
    (wf : DotDims.WF ⟨2, ![A, K]⟩ ⟨2, ![K, B]⟩ ⟨2, ![A, B]⟩ [1] [0] [0] [1] [] [])
    (l : (⟨2, ![A, K]⟩ : Shape).Idx → EReal) (r : (⟨2, ![K, B]⟩ : Shape).Idx → EReal) (i : Fin A) (j : Fin B) :
    FloatOps.matmul (F := Ideal) (φ₁ := φ₁) (φ₂ := φ₂) (plainDotDims A K B wf) none l r
        (constant (F := Ideal) ⟨2, ![A, B]⟩ .f32 0x00000000#32) (ix2 i j)
      = ∑ k : Fin K, l (ix2 i k) * r (ix2 k j) := by
  rw [Ideal.matmul_constant_zero_apply, ← Ideal.dotGeneral_apply (plainDotDims A K B wf) none .single l r (ix2 i j)]
  exact plainDot_apply (φ₁ := φ₁) (φ₂ := φ₂) A K B wf l r i j

end Cert.LibHR

end
-- ==== Proof.IdealPayload.lean ====
/-
  The block the kernel body leaves, entry by entry.

  At one grid point the body stacks eight input rows — the six rows of its block and the two single rows below it —,
  and for each of the nine stencil taps (kh, kw) takes the window of those rows at offset (kh, kw): six rows of 222
  columns by 32 channels, laid out as a 1332 × 32 matrix, times the tap's 32 × 32 block of the weight table. The nine
  products are added one after the other onto zero, the bias is added to every row, and the result is stored over the
  whole output block. Read at entry (r, s, f): row r·222 + s of a product is row r, column s of the window, that is the
  stacked rows at (r + kh, s + kw, ·), so a product's entry is the sum over the channel c of the stacked rows at
  (r + kh, s + kw, c) times the weight table at (kh, kw, c, f). Over the extended reals the change of format before
  the products is the identity and a product accumulated into zero is the plain sum of the products of the entries.
-/
import proofs.«178870_j77816217469233_2_alg».proof.Proof.IdealBody
import proofs.«178870_j77816217469233_2_alg».proof.Proof.LibHostRead
import Idealize.ShloMosaic.Lib.Pipeline.Value
import Idealize.ShloMosaic.Lib.ValueIdx
import Idealize.ShloMosaic.PureOps.Ideal.Laws

noncomputable section

namespace Cert.KernelIdeal.ConvPayload

open Cert.KernelIdeal Cert.KernelIdeal.Gen Cert.KernelIdeal.ConvBody Idealize.ShloMosaic Idealize.ShloMosaic.ValueIdx

/-- Row i of the eight stacked rows: rows 0–5 from the six-row block, row 6 and row 7 the two single rows. -/
def rowAt (x0 : Vec Ideal S1x6x224x32 .f32) (x1 x2 : Vec Ideal S1x1x224x32 .f32) (i : Fin 8) (s : Fin 224) (c : Fin 32) : EReal :=
  if h : i.val < 6 then x0 (ix4 (0 : Fin 1) (⟨i.val, h⟩ : Fin 6) s c)
  else if i.val = 6 then x1 (ix4 (0 : Fin 1) (0 : Fin 1) s c) else x2 (ix4 (0 : Fin 1) (0 : Fin 1) s c)

/-- A block with a leading unit axis, with that axis dropped, read at (i, s, c): the block at (0, i, s, c) — the two
    positions in row-major order are the same number. -/
theorem dropLead_apply {n : Nat} (v : (⟨4, ![1, n, 224, 32]⟩ : Shape).Idx → EReal)
    (h : (⟨4, ![1, n, 224, 32]⟩ : Shape).ShapeCasts ⟨3, ![n, 224, 32]⟩) (i : Fin n) (s : Fin 224) (c : Fin 32) :
    shapeCast ⟨3, ![n, 224, 32]⟩ v h (ix3 i s c) = v (ix4 (0 : Fin 1) i s c) :=
  shapeCast_apply v h (ix3 i s c) (ix4 (0 : Fin 1) i s c) (by
    rw [Shape.rowMajor_val_four, Shape.rowMajor_val_three]
    show ((0 * n + i.val) * 224 + s.val) * 32 + c.val = (i.val * 224 + s.val) * 32 + c.val
    omega)

/-- Six rows, one row and one more row stacked along the row axis, read at (i, s, c): row i of the first piece for
    i < 6, the second piece's row for i = 6, the third's for i = 7. -/
theorem stack_apply (y1 : S6x224x32.Idx → EReal) (y2 y3 : S1x224x32.Idx → EReal)
    (h : Shape.Concatenates (([⟨S6x224x32, y1⟩, ⟨S1x224x32, y2⟩, ⟨S1x224x32, y3⟩] : List ((s : Shape) × (s.Idx → EReal))).map (·.1)) S8x224x32 0)
    (i : Fin 8) (s : Fin 224) (c : Fin 32) :
    concatenate S8x224x32 0 [⟨S6x224x32, y1⟩, ⟨S1x224x32, y2⟩, ⟨S1x224x32, y3⟩] h (ix3 i s c)
      = if h : i.val < 6 then y1 (ix3 (⟨i.val, h⟩ : Fin 6) s c)
        else if i.val = 6 then y2 (ix3 (0 : Fin 1) s c) else y3 (ix3 (0 : Fin 1) s c) := by
  by_cases h6 : i.val < 6
  · rw [dif_pos h6]
    exact concatenate_apply_piece 0 _ h (ix3 i s c) 0 (by show 0 < 3; omega) S6x224x32 y1 rfl rfl 0 rfl
      (ix3 (⟨i.val, h6⟩ : Fin 6) s c) (fun b hb => match b with
        | ⟨0, _⟩ => absurd rfl hb
        | ⟨1, _⟩ => rfl
        | ⟨2, _⟩ => rfl) (by show 0 + i.val = i.val; omega)
  · rw [dif_neg h6]
    by_cases h7 : i.val = 6
    · rw [if_pos h7]
      exact concatenate_apply_piece 0 _ h (ix3 i s c) 1 (by show 1 < 3; omega) S1x224x32 y2 rfl rfl 6 rfl
        (ix3 (0 : Fin 1) s c) (fun b hb => match b with
          | ⟨0, _⟩ => absurd rfl hb
          | ⟨1, _⟩ => rfl
          | ⟨2, _⟩ => rfl) (by show 6 + 0 = i.val; omega)
    · rw [if_neg h7]
      have := i.isLt
      exact concatenate_apply_piece 0 _ h (ix3 i s c) 2 (by show 2 < 3; omega) S1x224x32 y3 rfl rfl 7 rfl
        (ix3 (0 : Fin 1) s c) (fun b hb => match b with
          | ⟨0, _⟩ => absurd rfl hb
          | ⟨1, _⟩ => rfl
          | ⟨2, _⟩ => rfl) (by show 7 + 0 = i.val; omega)

/-- The eight stacked rows read at (i, s, c): the six-row block, then the first single row, then the second, each with
    its leading unit axis dropped; the change of format is the identity on the extended reals. -/
theorem pay2_apply (v0 : Vec Ideal S1x6x224x32 .f32) (v2 v4 : Vec Ideal S1x1x224x32 .f32) (i : Fin 8) (s : Fin 224) (c : Fin 32) :
    k0_pay2 (F := Ideal) v0 v2 v4 (ix3 i s c) = rowAt v0 v2 v4 i s c := by
  unfold k0_pay2 rowAt
  refine (truncf_apply (φ := .f32) (ψ := .bf16) _ bitsLt_bf16_f32 (ix3 i s c)).trans ?_
  refine (stack_apply _ _ _ _ i s c).trans ?_
  by_cases h6 : i.val < 6
  · rw [dif_pos h6, dif_pos h6]
    exact dropLead_apply v0 _ (⟨i.val, h6⟩ : Fin 6) s c
  · rw [dif_neg h6, dif_neg h6]
    by_cases h7 : i.val = 6
    · rw [if_pos h7, if_pos h7]
      exact dropLead_apply v2 _ (0 : Fin 1) s c
    · rw [if_neg h7, if_neg h7]
      exact dropLead_apply v4 _ (0 : Fin 1) s c

/-- The [1, 1, 32, 32] block of the weight table at tap (a, b), with its two unit axes dropped, read at (c, f): the
    table at (a, b, c, f). -/
theorem ldW_apply (x3 : Vec Ideal S3x3x32x32 .bf16) (off : Fin S3x3x32x32.rank → Nat)
    (inb : ∀ d, off d + S1x1x32x32.size d ≤ S3x3x32x32.size d) (a b : Fin 3)
    (h0 : off 0 = a.val) (h1 : off 1 = b.val) (h2 : off 2 = 0) (h3 : off 3 = 0) (c f : Fin 32) :
    shapeCast S32x32 (View.ld x3 (Rect.unit (s := S3x3x32x32) off S1x1x32x32.size inb)) shapeCasts_S1x1x32x32_S32x32 (ix2 c f)
      = x3 (ix4 a b c f) := by
  refine (shapeCast_apply _ _ (ix2 c f) (ix4 (0 : Fin 1) (0 : Fin 1) c f) (by
    rw [Shape.rowMajor_val_four, Shape.rowMajor_val_two]
    show ((0 * 1 + 0) * 32 + c.val) * 32 + f.val = c.val * 32 + f.val
    omega)).trans ?_
  refine congrArg x3 (funext fun d => Fin.ext ?_)
  match d with
  | ⟨0, _⟩ => show off 0 + 1 * 0 = a.val; omega
  | ⟨1, _⟩ => show off 1 + 1 * 0 = b.val; omega
  | ⟨2, _⟩ => show off 2 + 1 * c.val = c.val; omega
  | ⟨3, _⟩ => show off 3 + 1 * f.val = f.val; omega

/-- One tap's term of the body: the window of the stacked rows at the tap's offset, its six rows of 222 columns laid
    out as 1332 rows, times the tap's 32 × 32 weight block, accumulated into zero, and laid out again as 6 × 222 rows. -/
def tapRaw (R : FVec Ideal S8x224x32 .bf16) (W : FVec Ideal S1x1x32x32 .bf16) (off : Fin S8x224x32.rank → Nat)
    (hs : S8x224x32.Slices off S6x222x32) : FVec Ideal S6x222x32 .f32 :=
  shapeCast S6x222x32 (matmul dot_S1332x32_S32x32_S1332x32_1_0_0_1_n_n none
      (shapeCast S1332x32 (extractStridedSlice S6x222x32 off R hs) shapeCasts_S6x222x32_S1332x32)
      (shapeCast S32x32 W shapeCasts_S1x1x32x32_S32x32) (constant S1332x32 .f32 0x00000000#32)) shapeCasts_S1332x32_S6x222x32

/-- That term read at (r, s, f): the sum over the channel c of the stacked rows at (r + kh, s + kw, c) times the weight
    block at (c, f). Row r·222 + s of the 1332 is row r, column s of the window; the product over the extended reals
    into a zero accumulator is the sum of the products. -/
theorem tapRaw_apply (R : FVec Ideal S8x224x32 .bf16) (W : FVec Ideal S1x1x32x32 .bf16) (off : Fin S8x224x32.rank → Nat)
    (hs : S8x224x32.Slices off S6x222x32) (kh kw : Fin 3) (h0 : off 0 = kh.val) (h1 : off 1 = kw.val) (h2 : off 2 = 0)
    (r : Fin 6) (s : Fin 222) (f : Fin 32) :
    tapRaw R W off hs (ix3 r s f)
      = ∑ c : Fin 32, R (ix3 (⟨r.val + kh.val, by have := r.isLt; have := kh.isLt; omega⟩ : Fin 8)
            (⟨s.val + kw.val, by have := s.isLt; have := kw.isLt; omega⟩ : Fin 224) c)
          * shapeCast S32x32 W shapeCasts_S1x1x32x32_S32x32 (ix2 c f) := by
  have hr := r.isLt
  have hs' := s.isLt
  unfold tapRaw
  refine (shapeCast_apply _ _ (ix3 r s f) (ix2 (⟨r.val * 222 + s.val, by omega⟩ : Fin 1332) f) (by
    rw [Shape.rowMajor_val_two, Shape.rowMajor_val_three]
    show (r.val * 222 + s.val) * 32 + f.val = (r.val * 222 + s.val) * 32 + f.val
    rfl)).trans ?_
  refine (Cert.LibHR.plainMatmul_zero_apply 1332 32 32 _ _ _ (⟨r.val * 222 + s.val, by omega⟩ : Fin 1332) f).trans ?_
  refine Finset.sum_congr rfl fun c _ => ?_
  refine congrArg (· * shapeCast S32x32 W shapeCasts_S1x1x32x32_S32x32 (ix2 c f)) ?_
  refine (shapeCast_apply _ _ (ix2 (⟨r.val * 222 + s.val, by omega⟩ : Fin 1332) c) (ix3 r s c) (by
    rw [Shape.rowMajor_val_two, Shape.rowMajor_val_three]
    show (r.val * 222 + s.val) * 32 + c.val = (r.val * 222 + s.val) * 32 + c.val
    rfl)).trans ?_
  exact extractStridedSlice_apply off R hs (ix3 r s c) _ (fun a => match a with
    | ⟨0, _⟩ => by show r.val + kh.val = off 0 + r.val; omega
    | ⟨1, _⟩ => by show s.val + kw.val = off 1 + s.val; omega
    | ⟨2, _⟩ => by show c.val = off 2 + c.val; omega)

/-- One tap's channel sum for output entry (r, s, f) of the block. -/
def tapBlk (x0 : Vec Ideal S1x6x224x32 .f32) (x1 x2 : Vec Ideal S1x1x224x32 .f32) (x3 : Vec Ideal S3x3x32x32 .bf16)
    (r : Fin 6) (s : Fin 222) (f : Fin 32) (kh kw : Fin 3) : EReal :=
  ∑ c : Fin 32, rowAt x0 x1 x2 (⟨r.val + kh.val, by have := r.isLt; have := kh.isLt; omega⟩ : Fin 8)
      (⟨s.val + kw.val, by have := s.isLt; have := kw.isLt; omega⟩ : Fin 224) c * x3 (ix4 kh kw c f)

/-- A tap's term of the body over the stacked rows and the tap's block of the weight table, read at (r, s, f): the
    tap's channel sum. -/
theorem tap_apply (x0 : Vec Ideal S1x6x224x32 .f32) (x1 x2 : Vec Ideal S1x1x224x32 .f32) (x3 : Vec Ideal S3x3x32x32 .bf16)
    (off : Fin S8x224x32.rank → Nat) (hs : S8x224x32.Slices off S6x222x32)
    (woff : Fin S3x3x32x32.rank → Nat) (inb : ∀ d, woff d + S1x1x32x32.size d ≤ S3x3x32x32.size d) (kh kw : Fin 3)
    (h0 : off 0 = kh.val) (h1 : off 1 = kw.val) (h2 : off 2 = 0)
    (g0 : woff 0 = kh.val) (g1 : woff 1 = kw.val) (g2 : woff 2 = 0) (g3 : woff 3 = 0)
    (r : Fin 6) (s : Fin 222) (f : Fin 32) :
    tapRaw (k0_pay2 (F := Ideal) x0 x1 x2) (View.ld x3 (Rect.unit (s := S3x3x32x32) woff S1x1x32x32.size inb)) off hs (ix3 r s f)
      = tapBlk x0 x1 x2 x3 r s f kh kw := by
  refine (tapRaw_apply _ _ off hs kh kw h0 h1 h2 r s f).trans ?_
  unfold tapBlk
  refine Finset.sum_congr rfl fun c _ => ?_
  rw [pay2_apply, ldW_apply x3 woff inb kh kw g0 g1 g2 g3 c f]

/-- The three payloads as sums of named terms. -/
theorem pay3_eq (v0 : Vec Ideal S1x6x224x32 .f32) (v2 v4 : Vec Ideal S1x1x224x32 .f32) (w00 w01 w02 : Vec Ideal S1x1x32x32 .bf16) :
    k0_pay3 (F := Ideal) v0 v2 v4 w00 w01 w02
      = addf (addf (addf (broadcast S6x222x32 (Scalar.ofBits (F := Ideal) .f32 0x00000000#32))
          (tapRaw (k0_pay2 v0 v2 v4) w00 ![0, 0, 0] slices_S8x224x32_o0_0_0_S6x222x32))
          (tapRaw (k0_pay2 v0 v2 v4) w01 ![0, 1, 0] slices_S8x224x32_o0_1_0_S6x222x32))
          (tapRaw (k0_pay2 v0 v2 v4) w02 ![0, 2, 0] slices_S8x224x32_o0_2_0_S6x222x32) := rfl

theorem pay4_eq (R : FVec Ideal S8x224x32 .bf16) (a : FVec Ideal S6x222x32 .f32) (w10 w11 w12 w20 w21 : Vec Ideal S1x1x32x32 .bf16) :
    k0_pay4 (F := Ideal) R a w10 w11 w12 w20 w21
      = addf (addf (addf (addf (addf a
          (tapRaw R w10 ![1, 0, 0] slices_S8x224x32_o1_0_0_S6x222x32))
          (tapRaw R w11 ![1, 1, 0] slices_S8x224x32_o1_1_0_S6x222x32))
          (tapRaw R w12 ![1, 2, 0] slices_S8x224x32_o1_2_0_S6x222x32))
          (tapRaw R w20 ![2, 0, 0] slices_S8x224x32_o2_0_0_S6x222x32))
          (tapRaw R w21 ![2, 1, 0] slices_S8x224x32_o2_1_0_S6x222x32) := rfl

theorem pay1_eq (R : FVec Ideal S8x224x32 .bf16) (a : FVec Ideal S6x222x32 .f32) (w22 : Vec Ideal S1x1x32x32 .bf16) (b : Vec Ideal S32 .f32) :
    k0_pay1 (F := Ideal) R a w22 b
      = shapeCast S1x6x222x32 (addf (addf a
          (tapRaw R w22 ![2, 2, 0] slices_S8x224x32_o2_2_0_S6x222x32))
          (broadcastTo S6x222x32 (shapeCast S1x1x32 b shapeCasts_S32_S1x1x32) broadcasts_S1x1x32_S6x222x32))
          shapeCasts_S6x222x32_S1x6x222x32 := rfl

/-- The bias laid out as [1, 1, 32] and spread over the block, read at (r, s, f): the bias of filter f. -/
theorem bias_apply (b : Vec Ideal S32 .f32) (r : Fin 6) (s : Fin 222) (f : Fin 32) :
    broadcastTo S6x222x32 (shapeCast S1x1x32 b shapeCasts_S32_S1x1x32) broadcasts_S1x1x32_S6x222x32 (ix3 r s f) = b (ix1 f) := by
  refine (broadcastTo_apply _ _ (ix3 r s f) (ix3 (0 : Fin 1) (0 : Fin 1) f) (fun a => match a with
    | ⟨0, _⟩ => by show 0 = if (1 : Nat) = 1 then 0 else r.val; rw [if_pos rfl]
    | ⟨1, _⟩ => by show 0 = if (1 : Nat) = 1 then 0 else s.val; rw [if_pos rfl]
    | ⟨2, _⟩ => by show f.val = if (32 : Nat) = 1 then 0 else f.val; rw [if_neg (by decide)])).trans ?_
  exact shapeCast_apply _ _ (ix3 (0 : Fin 1) (0 : Fin 1) f) (ix1 f) (by
    rw [Shape.rowMajor_val_one, Shape.rowMajor_val_three]
    show f.val = (0 * 1 + 0) * 32 + f.val
    omega)

/-- The offsets of a whole-buffer rectangle are zero, at rank four and at rank one. -/
theorem hz4 : (![0, 0, 0, 0] : Fin 4 → Nat) = fun _ => 0 :=
  funext fun a => match a with | ⟨0, _⟩ => rfl | ⟨1, _⟩ => rfl | ⟨2, _⟩ => rfl | ⟨3, _⟩ => rfl
theorem hz1 : (![0] : Fin 1 → Nat) = fun _ => 0 := funext fun a => match a with | ⟨0, _⟩ => rfl

/-- The block the body leaves, read at (0, r, s, f): the nine taps' channel sums over the stacked rows, added one after
    the other onto zero in the order (0,0), (0,1), …, (2,2), then the bias of filter f. -/
theorem outBlock_apply (x0 : Vec Ideal S1x6x224x32 .f32) (x1 x2 : Vec Ideal S1x1x224x32 .f32) (x3 : Vec Ideal S3x3x32x32 .bf16)
    (x4 : Vec Ideal S32 .f32) (r : Fin 6) (s : Fin 222) (f : Fin 32) :
    outBlock (F := Ideal) x0 x1 x2 x3 x4 (ix4 (0 : Fin 1) r s f)
      = (((((((((0 + tapBlk x0 x1 x2 x3 r s f 0 0) + tapBlk x0 x1 x2 x3 r s f 0 1) + tapBlk x0 x1 x2 x3 r s f 0 2) + tapBlk x0 x1 x2 x3 r s f 1 0) + tapBlk x0 x1 x2 x3 r s f 1 1) + tapBlk x0 x1 x2 x3 r s f 1 2) + tapBlk x0 x1 x2 x3 r s f 2 0) + tapBlk x0 x1 x2 x3 r s f 2 1) + tapBlk x0 x1 x2 x3 r s f 2 2) + x4 (ix1 f) := by
  have hO : outBlock (F := Ideal) x0 x1 x2 x3 x4 = outVal x0 x1 x2 x3 x4 :=
    View.canon_unit_zero (S := S1x6x222x32) hz4 _ _
  have hM : View.ld x0 rMain = x0 := View.ld_unit_zero (S := S1x6x224x32) hz4 _ x0
  have hR1 : View.ld x1 rRow = x1 := View.ld_unit_zero (S := S1x1x224x32) hz4 _ x1
  have hR2 : View.ld x2 rRow = x2 := View.ld_unit_zero (S := S1x1x224x32) hz4 _ x2
  have hB : View.ld x4 rBias = x4 := View.ld_unit_zero (S := S32) hz1 _ x4
  rw [hO]
  unfold outVal rows8
  rw [hM, hR1, hR2, hB, pay1_eq, pay4_eq, pay3_eq]
  refine (shapeCast_apply _ _ (ix4 (0 : Fin 1) r s f) (ix3 r s f) (by
    rw [Shape.rowMajor_val_three, Shape.rowMajor_val_four]
    show (r.val * 222 + s.val) * 32 + f.val = ((0 * 6 + r.val) * 222 + s.val) * 32 + f.val
    omega)).trans ?_
  simp only [addf_apply, broadcast_apply]
  rw [tap_apply x0 x1 x2 x3 ![0, 0, 0] slices_S8x224x32_o0_0_0_S6x222x32 ![0, 0, 0, 0] inb_S3x3x32x32_S1x1x32x32_0_0_0_0 0 0 rfl rfl rfl rfl rfl rfl rfl r s f,
    tap_apply x0 x1 x2 x3 ![0, 1, 0] slices_S8x224x32_o0_1_0_S6x222x32 ![0, 1, 0, 0] inb_S3x3x32x32_S1x1x32x32_0_1_0_0 0 1 rfl rfl rfl rfl rfl rfl rfl r s f,
    tap_apply x0 x1 x2 x3 ![0, 2, 0] slices_S8x224x32_o0_2_0_S6x222x32 ![0, 2, 0, 0] inb_S3x3x32x32_S1x1x32x32_0_2_0_0 0 2 rfl rfl rfl rfl rfl rfl rfl r s f,
    tap_apply x0 x1 x2 x3 ![1, 0, 0] slices_S8x224x32_o1_0_0_S6x222x32 ![1, 0, 0, 0] inb_S3x3x32x32_S1x1x32x32_1_0_0_0 1 0 rfl rfl rfl rfl rfl rfl rfl r s f,
    tap_apply x0 x1 x2 x3 ![1, 1, 0] slices_S8x224x32_o1_1_0_S6x222x32 ![1, 1, 0, 0] inb_S3x3x32x32_S1x1x32x32_1_1_0_0 1 1 rfl rfl rfl rfl rfl rfl rfl r s f,
    tap_apply x0 x1 x2 x3 ![1, 2, 0] slices_S8x224x32_o1_2_0_S6x222x32 ![1, 2, 0, 0] inb_S3x3x32x32_S1x1x32x32_1_2_0_0 1 2 rfl rfl rfl rfl rfl rfl rfl r s f,
    tap_apply x0 x1 x2 x3 ![2, 0, 0] slices_S8x224x32_o2_0_0_S6x222x32 ![2, 0, 0, 0] inb_S3x3x32x32_S1x1x32x32_2_0_0_0 2 0 rfl rfl rfl rfl rfl rfl rfl r s f,
    tap_apply x0 x1 x2 x3 ![2, 1, 0] slices_S8x224x32_o2_1_0_S6x222x32 ![2, 1, 0, 0] inb_S3x3x32x32_S1x1x32x32_2_1_0_0 2 1 rfl rfl rfl rfl rfl rfl rfl r s f,
    tap_apply x0 x1 x2 x3 ![2, 2, 0] slices_S8x224x32_o2_2_0_S6x222x32 ![2, 2, 0, 0] inb_S3x3x32x32_S1x1x32x32_2_2_0_0 2 2 rfl rfl rfl rfl rfl rfl rfl r s f,
    bias_apply]
  show (((((((((Ideal.ofBits .f32 0x00000000#32 + tapBlk x0 x1 x2 x3 r s f 0 0) + tapBlk x0 x1 x2 x3 r s f 0 1) + tapBlk x0 x1 x2 x3 r s f 0 2) + tapBlk x0 x1 x2 x3 r s f 1 0) + tapBlk x0 x1 x2 x3 r s f 1 1) + tapBlk x0 x1 x2 x3 r s f 1 2) + tapBlk x0 x1 x2 x3 r s f 2 0) + tapBlk x0 x1 x2 x3 r s f 2 1) + tapBlk x0 x1 x2 x3 r s f 2 2) + x4 (ix1 f) = _
  rw [Ideal.ofBits_zero_f32]

end Cert.KernelIdeal.ConvPayload

end
-- ==== Proof.ConvSpec.lean ====
/-
  The 3×3 valid convolution with bias, as one function of the argument arrays.

  For an input `x` of shape [16, 224, 224, 32] (batch, row, column, channel), a flat weight `w` of 9216 = 32·3·3·32
  words read as [filter, tap row, tap column, channel] in row-major order, and a bias `b` of 32 words, the output at
  (n, r, s, f) — 222 rows and columns, one per position where the 3×3 stencil fits — is

      Σ_{kh < 3} Σ_{kw < 3} Σ_{c < 32}  x[n, r + kh, s + kw, c] · w[f·288 + kh·96 + kw·32 + c]   +   b[f]

  on the extended reals. Sums of extended reals are sums in a commutative additive monoid, so their order and grouping
  are free; nothing here asks the entries to be finite.
-/
import Idealize.ShloMosaic.PureOps.Ideal
import Idealize.ShloMosaic.Lib.ValueIdx

noncomputable section

namespace Cert.ConvSpec

open Idealize.ShloMosaic Idealize.ShloMosaic.ValueIdx

/-- The input entry that output position (n, r, s) reads under tap (kh, kw) at channel c: row r + kh, column s + kw. -/
def tap (n : Fin 16) (r s : Fin 222) (kh kw : Fin 3) (c : Fin 32) : (⟨4, ![16, 224, 224, 32]⟩ : Shape).Idx :=
  ix4 n ⟨r.val + kh.val, by have := r.isLt; have := kh.isLt; omega⟩ ⟨s.val + kw.val, by have := s.isLt; have := kw.isLt; omega⟩ c

/-- The flat weight's word for filter f, tap (kh, kw), channel c: the row-major position in [32, 3, 3, 32]. -/
def wAt (f : Fin 32) (kh kw : Fin 3) (c : Fin 32) : (⟨1, ![9216]⟩ : Shape).Idx :=
  ix1 ⟨f.val * 288 + kh.val * 96 + kw.val * 32 + c.val, by have := f.isLt; have := kh.isLt; have := kw.isLt; have := c.isLt; omega⟩

/-- One tap's contribution to output (n, r, s, f): the channel sum of input times weight. -/
def tapSum (x : FVec Ideal ⟨4, ![16, 224, 224, 32]⟩ .f32) (w : FVec Ideal ⟨1, ![9216]⟩ .f32)
    (n : Fin 16) (r s : Fin 222) (f : Fin 32) (kh kw : Fin 3) : EReal :=
  ∑ c : Fin 32, x (tap n r s kh kw c) * w (wAt f kh kw c)

/-- The convolution with bias, index by index. -/
def conv (x : FVec Ideal ⟨4, ![16, 224, 224, 32]⟩ .f32) (w : FVec Ideal ⟨1, ![9216]⟩ .f32) (b : FVec Ideal ⟨1, ![32]⟩ .f32) :
    FVec Ideal ⟨4, ![16, 222, 222, 32]⟩ .f32 := fun j =>
  (∑ kh : Fin 3, ∑ kw : Fin 3, tapSum x w (j 0) (j 1) (j 2) (j 3) kh kw) + b (ix1 (j 3))

/-- The nine taps added one after the other onto zero, in the order (0,0), (0,1), …, (2,2), then the bias: the same
    number, since addition of extended reals is associative and zero is its unit. -/
theorem conv_eq_chain (x : FVec Ideal ⟨4, ![16, 224, 224, 32]⟩ .f32) (w : FVec Ideal ⟨1, ![9216]⟩ .f32) (b : FVec Ideal ⟨1, ![32]⟩ .f32)
    (j : (⟨4, ![16, 222, 222, 32]⟩ : Shape).Idx) :
    conv x w b j =
      (((((((((0 + tapSum x w (j 0) (j 1) (j 2) (j 3) 0 0) + tapSum x w (j 0) (j 1) (j 2) (j 3) 0 1) + tapSum x w (j 0) (j 1) (j 2) (j 3) 0 2)
        + tapSum x w (j 0) (j 1) (j 2) (j 3) 1 0) + tapSum x w (j 0) (j 1) (j 2) (j 3) 1 1) + tapSum x w (j 0) (j 1) (j 2) (j 3) 1 2)
        + tapSum x w (j 0) (j 1) (j 2) (j 3) 2 0) + tapSum x w (j 0) (j 1) (j 2) (j 3) 2 1) + tapSum x w (j 0) (j 1) (j 2) (j 3) 2 2)
        + b (ix1 (j 3)) := by
  unfold conv
  simp only [Fin.sum_univ_three, zero_add, add_assoc]

end Cert.ConvSpec

end
-- ==== Proof.IdealValue.lean ====
/-
  The output array after the run is the convolution of the argument arrays.

  Grid point t = 37·n + h is batch n, row tile h. There the six-row block holds input rows 6h … 6h+5 of batch n, the
  two single-row blocks rows 6h+6 and 6h+7, the weight block the whole [3, 3, 32, 32] table — entry (kh, kw, c, f) of
  which is word f·288 + kh·96 + kw·32 + c of the flat weight, by the reshape and the transpose before the region
  (the change of format is the identity on the extended reals) —, and the bias block the bias. So entry (r, s, f) of
  what the body stores is the convolution at (n, 6h + r, s, f): the eight stacked rows are input rows 6h … 6h+7, tap
  (kh, kw) of output row r reads stacked row r + kh at column s + kw, and the nine taps added one after the other
  onto zero, plus the bias, are the convolution's sum written in that order. The output blocks of six rows tile the
  222 output rows and every point writes its block back: the array ends at the convolution everywhere.
-/
import proofs.«178870_j77816217469233_2_alg».proof.Proof.IdealRun
import proofs.«178870_j77816217469233_2_alg».proof.Proof.IdealPayload
import proofs.«178870_j77816217469233_2_alg».proof.Proof.ConvSpec
import Idealize.ShloMosaic.Lib.Pipeline.Value
import Idealize.ShloMosaic.Lib.ValueIdx
import Idealize.ShloMosaic.Lib.StableHlo.Run

set_option maxRecDepth 16384

noncomputable section

namespace Cert.KernelIdeal.ConvValue

open Cert.KernelIdeal Cert.KernelIdeal.Gen Cert.KernelIdeal.ConvBody Cert.KernelIdeal.ConvRun Cert.KernelIdeal.ConvPayload Cert.ConvSpec
open Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg)

/-! ## The index maps over the grid -/

/-- Point t is batch t / 37, row tile t % 37: the six-row input block and the output block sit at (t / 37, t % 37),
    the single rows at rows 6·(t % 37 + 1) and 6·(t % 37 + 1) + 1, the weight and the bias at their one block. -/
theorem idx_facts : ∀ t : Fin cfg0.N,
    win0_5.index t (0 : Fin 4) = t.val / 37 ∧ win0_5.index t (1 : Fin 4) = t.val % 37 ∧ win0_5.index t (2 : Fin 4) = 0 ∧ win0_5.index t (3 : Fin 4) = 0
    ∧ win0_0.index t (0 : Fin 4) = t.val / 37 ∧ win0_0.index t (1 : Fin 4) = t.val % 37 ∧ win0_0.index t (2 : Fin 4) = 0 ∧ win0_0.index t (3 : Fin 4) = 0
    ∧ win0_1.index t (0 : Fin 4) = t.val / 37 ∧ win0_1.index t (1 : Fin 4) = (t.val % 37 + 1) * 6 ∧ win0_1.index t (2 : Fin 4) = 0 ∧ win0_1.index t (3 : Fin 4) = 0
    ∧ win0_2.index t (0 : Fin 4) = t.val / 37 ∧ win0_2.index t (1 : Fin 4) = (t.val % 37 + 1) * 6 + 1 ∧ win0_2.index t (2 : Fin 4) = 0 ∧ win0_2.index t (3 : Fin 4) = 0
    ∧ win0_3.index t (0 : Fin 4) = 0 ∧ win0_3.index t (1 : Fin 4) = 0 ∧ win0_3.index t (2 : Fin 4) = 0 ∧ win0_3.index t (3 : Fin 4) = 0
    ∧ win0_4.index t (0 : Fin 1) = 0 :=
  (by decide +kernel : ∀ t : Fin grid0.N, _)

theorem t_lt (t : Fin cfg0.N) : t.val < 592 := Nat.lt_of_lt_of_eq t.isLt N_0

/-! ## Each staging block's entries are entries of the argument arrays -/

/-- The six-row block at point t: input rows 6·(t % 37) + i of batch t / 37. -/
theorem stg0_apply (c : Dev nD) (t : Fin cfg0.N) (i : Fin 6) (s : Fin 224) (ch : Fin 32) :
    stg0 m c t (ix4 (0 : Fin 1) i s ch)
      = m ((c : Thread nD τ).loc main_arg0) (ix4 (⟨t.val / 37, by have := t_lt t; omega⟩ : Fin 16) (⟨t.val % 37 * 6 + i.val, by have := i.isLt; omega⟩ : Fin 224) s ch) := by
  unfold stg0 Window.fill
  rw [dif_pos (moved0 t _), ← V_main_arg0 m c]
  unfold iblk
  show V m c main_arg0 (((cfg0.win 0).blk t).view.emb _) = V m c main_arg0 _
  refine congrArg _ (funext fun a => Fin.ext ?_)
  obtain ⟨-, -, -, -, e0, e1, e2, e3, -⟩ := idx_facts t
  match a with
  | ⟨0, _⟩ => show win0_0.index t (0 : Fin 4) * 1 + 1 * 0 = t.val / 37; omega
  | ⟨1, _⟩ => show win0_0.index t (1 : Fin 4) * 6 + 1 * i.val = t.val % 37 * 6 + i.val; omega
  | ⟨2, _⟩ => show win0_0.index t (2 : Fin 4) * 224 + 1 * s.val = s.val; omega
  | ⟨3, _⟩ => show win0_0.index t (3 : Fin 4) * 32 + 1 * ch.val = ch.val; omega

/-- The first single-row block: input row 6·(t % 37) + 6. -/
theorem row1_apply (c : Dev nD) (t : Fin cfg0.N) (s : Fin 224) (ch : Fin 32) :
    iblk m c 1 t (ix4 (0 : Fin 1) (0 : Fin 1) s ch)
      = m ((c : Thread nD τ).loc main_arg0) (ix4 (⟨t.val / 37, by have := t_lt t; omega⟩ : Fin 16) (⟨t.val % 37 * 6 + 6, by omega⟩ : Fin 224) s ch) := by
  rw [← V_main_arg0 m c]
  unfold iblk
  show V m c main_arg0 (((cfg0.win 1).blk t).view.emb _) = V m c main_arg0 _
  refine congrArg _ (funext fun a => Fin.ext ?_)
  obtain ⟨-, -, -, -, -, -, -, -, e0, e1, e2, e3, -⟩ := idx_facts t
  match a with
  | ⟨0, _⟩ => show win0_1.index t (0 : Fin 4) * 1 + 1 * 0 = t.val / 37; omega
  | ⟨1, _⟩ => show win0_1.index t (1 : Fin 4) * 1 + 1 * 0 = t.val % 37 * 6 + 6; omega
  | ⟨2, _⟩ => show win0_1.index t (2 : Fin 4) * 224 + 1 * s.val = s.val; omega
  | ⟨3, _⟩ => show win0_1.index t (3 : Fin 4) * 32 + 1 * ch.val = ch.val; omega

/-- The second single-row block: input row 6·(t % 37) + 7. -/
theorem row2_apply (c : Dev nD) (t : Fin cfg0.N) (s : Fin 224) (ch : Fin 32) :
    iblk m c 2 t (ix4 (0 : Fin 1) (0 : Fin 1) s ch)
      = m ((c : Thread nD τ).loc main_arg0) (ix4 (⟨t.val / 37, by have := t_lt t; omega⟩ : Fin 16) (⟨t.val % 37 * 6 + 7, by omega⟩ : Fin 224) s ch) := by
  rw [← V_main_arg0 m c]
  unfold iblk
  show V m c main_arg0 (((cfg0.win 2).blk t).view.emb _) = V m c main_arg0 _
  refine congrArg _ (funext fun a => Fin.ext ?_)
  obtain ⟨-, -, -, -, -, -, -, -, -, -, -, -, e0, e1, e2, e3, -⟩ := idx_facts t
  match a with
  | ⟨0, _⟩ => show win0_2.index t (0 : Fin 4) * 1 + 1 * 0 = t.val / 37; omega
  | ⟨1, _⟩ => show win0_2.index t (1 : Fin 4) * 1 + 1 * 0 = t.val % 37 * 6 + 7; omega
  | ⟨2, _⟩ => show win0_2.index t (2 : Fin 4) * 224 + 1 * s.val = s.val; omega
  | ⟨3, _⟩ => show win0_2.index t (3 : Fin 4) * 32 + 1 * ch.val = ch.val; omega

/-- The weight table as the region finds it: the flat weight reshaped to [32, 3, 3, 32], its axes permuted to
    [3, 3, 32, 32], its format changed. -/
theorem V_main_v2 (c : Dev nD) :
    (V m c main_v2 : S3x3x32x32.Idx → Elt Ideal .bf16)
      = truncf (F := Ideal) .bf16 (transpose S3x3x32x32 [1, 2, 3, 0]
          (shapeCast S32x3x3x32 (m ((c : Thread nD τ).loc main_arg1) : S9216.Idx → Elt Ideal .f32) shapeCasts_S9216_S32x3x3x32)
          transposes_S32x3x3x32_S3x3x32x32_1_2_3_0) bitsLt_bf16_f32 := by
  dsimp only [V, hostOps0]; after_results; rfl

/-- Its entry (kh, kw, c, f) is the flat weight's word f·288 + kh·96 + kw·32 + c. -/
theorem wtab_apply (c : Dev nD) (kh kw : Fin 3) (ch f : Fin 32) :
    V m c main_v2 (ix4 kh kw ch f) = m ((c : Thread nD τ).loc main_arg1) (wAt f kh kw ch) := by
  rw [V_main_v2, truncf_apply]
  rw [transpose_apply [1, 2, 3, 0] _ transposes_S32x3x3x32_S3x3x32x32_1_2_3_0 (ix4 kh kw ch f) (ix4 f kh kw ch) (fun b => by
    match b with
    | ⟨0, _⟩ => rfl
    | ⟨1, _⟩ => rfl
    | ⟨2, _⟩ => rfl
    | ⟨3, _⟩ => rfl)]
  exact shapeCast_apply _ shapeCasts_S9216_S32x3x3x32 (ix4 f kh kw ch) (wAt f kh kw ch) (by
    rw [Shape.rowMajor_val_one, Shape.rowMajor_val_four]
    have := f.isLt; have := kh.isLt; have := kw.isLt; have := ch.isLt
    show f.val * 288 + kh.val * 96 + kw.val * 32 + ch.val = ((f.val * 3 + kh.val) * 3 + kw.val) * 32 + ch.val
    omega)

/-- The weight block at every point is the whole table. -/
theorem wblk_apply (c : Dev nD) (t : Fin cfg0.N) (kh kw : Fin 3) (ch f : Fin 32) :
    iblk m c 3 t (ix4 kh kw ch f) = m ((c : Thread nD τ).loc main_arg1) (wAt f kh kw ch) := by
  rw [← wtab_apply m c]
  unfold iblk
  show V m c main_v2 (((cfg0.win 3).blk t).view.emb _) = V m c main_v2 _
  refine congrArg _ (funext fun a => Fin.ext ?_)
  obtain ⟨-, -, -, -, -, -, -, -, -, -, -, -, -, -, -, -, e0, e1, e2, e3, -⟩ := idx_facts t
  match a with
  | ⟨0, _⟩ => show win0_3.index t (0 : Fin 4) * 3 + 1 * kh.val = kh.val; omega
  | ⟨1, _⟩ => show win0_3.index t (1 : Fin 4) * 3 + 1 * kw.val = kw.val; omega
  | ⟨2, _⟩ => show win0_3.index t (2 : Fin 4) * 32 + 1 * ch.val = ch.val; omega
  | ⟨3, _⟩ => show win0_3.index t (3 : Fin 4) * 32 + 1 * f.val = f.val; omega

/-- The bias block at every point is the bias. -/
theorem bblk_apply (c : Dev nD) (t : Fin cfg0.N) (f : Fin 32) :
    iblk m c 4 t (ix1 f) = m ((c : Thread nD τ).loc main_arg2) (ix1 f) := by
  rw [← V_main_arg2 m c]
  unfold iblk
  show V m c main_arg2 (((cfg0.win 4).blk t).view.emb _) = V m c main_arg2 _
  refine congrArg _ (funext fun a => Fin.ext ?_)
  obtain ⟨-, -, -, -, -, -, -, -, -, -, -, -, -, -, -, -, -, -, -, -, e0⟩ := idx_facts t
  match a with
  | ⟨0, _⟩ => show win0_4.index t (0 : Fin 1) * 32 + 1 * f.val = f.val; omega

/-! ## What a point writes back -/

/-- The convolution of the argument arrays as launched. -/
abbrev G (c : Dev nD) : S16x222x222x32.Idx → Elt Ideal .f32 :=
  conv (m ((c : Thread nD τ).loc main_arg0)) (m ((c : Thread nD τ).loc main_arg1)) (m ((c : Thread nD τ).loc main_arg2))

/-- Stacked row r + kh at column s + kw, at point t, is input row 6·(t % 37) + r + kh of batch t / 37: the entry the
    convolution's tap (kh, kw) reads for output row 6·(t % 37) + r. -/
theorem stacked_eq (c : Dev nD) (t : Fin cfg0.N) (r : Fin 6) (s : Fin 222) (kh kw : Fin 3) (ch : Fin 32)
    (hi : r.val + kh.val < 8) (hs : s.val + kw.val < 224) :
    rowAt (stg0 m c t) (iblk m c 1 t) (iblk m c 2 t) ⟨r.val + kh.val, hi⟩ ⟨s.val + kw.val, hs⟩ ch
      = m ((c : Thread nD τ).loc main_arg0)
          (tap (⟨t.val / 37, by have := t_lt t; omega⟩ : Fin 16) (⟨t.val % 37 * 6 + r.val, by have := r.isLt; omega⟩ : Fin 222) s kh kw ch) := by
  have hr := r.isLt; have hkh := kh.isLt
  unfold rowAt
  by_cases h6 : r.val + kh.val < 6
  · rw [dif_pos h6]
    refine (stg0_apply m c t ⟨r.val + kh.val, h6⟩ ⟨s.val + kw.val, hs⟩ ch).trans (congrArg _ (funext fun a => Fin.ext ?_))
    match a with
    | ⟨0, _⟩ => rfl
    | ⟨1, _⟩ => show t.val % 37 * 6 + (r.val + kh.val) = t.val % 37 * 6 + r.val + kh.val; omega
    | ⟨2, _⟩ => rfl
    | ⟨3, _⟩ => rfl
  · rw [dif_neg h6]
    by_cases h7 : r.val + kh.val = 6
    · rw [if_pos h7]
      refine (row1_apply m c t ⟨s.val + kw.val, hs⟩ ch).trans (congrArg _ (funext fun a => Fin.ext ?_))
      match a with
      | ⟨0, _⟩ => rfl
      | ⟨1, _⟩ => show t.val % 37 * 6 + 6 = t.val % 37 * 6 + r.val + kh.val; omega
      | ⟨2, _⟩ => rfl
      | ⟨3, _⟩ => rfl
    · rw [if_neg h7]
      refine (row2_apply m c t ⟨s.val + kw.val, hs⟩ ch).trans (congrArg _ (funext fun a => Fin.ext ?_))
      match a with
      | ⟨0, _⟩ => rfl
      | ⟨1, _⟩ => show t.val % 37 * 6 + 7 = t.val % 37 * 6 + r.val + kh.val; omega
      | ⟨2, _⟩ => rfl
      | ⟨3, _⟩ => rfl

/-- One tap of a block entry is that tap of the convolution. -/
theorem tap_eq (c : Dev nD) (t : Fin cfg0.N) (r : Fin 6) (s : Fin 222) (f : Fin 32) (kh kw : Fin 3) :
    tapBlk (stg0 m c t) (iblk m c 1 t) (iblk m c 2 t) (iblk m c 3 t) r s f kh kw
      = tapSum (m ((c : Thread nD τ).loc main_arg0)) (m ((c : Thread nD τ).loc main_arg1))
          (⟨t.val / 37, by have := t_lt t; omega⟩ : Fin 16) (⟨t.val % 37 * 6 + r.val, by have := r.isLt; omega⟩ : Fin 222) s f kh kw := by
  unfold tapBlk tapSum
  refine Finset.sum_congr rfl fun ch _ => ?_
  exact congrArg₂ (· * ·) (stacked_eq m c t r s kh kw ch _ _) (wblk_apply m c t kh kw ch f)

/-- WHAT POINT t WRITES BACK is block t of the convolution. -/
theorem flushed_eq (c : Dev nD) (t : Fin cfg0.N) :
    (dats m 0 c).flushed 5 t = ((cfg0.win 5).blk t).view.read (Elt Ideal) (G m c) := by
  show (cfg0.win 5).cut (grid0.coords t) ((dats m 0 c).after 5 t) = _
  rw [after_5]
  funext y
  obtain ⟨y0, r, s, f, rfl⟩ : ∃ (y0 : Fin 1) (r : Fin 6) (s : Fin 222) (f : Fin 32), y = ix4 y0 r s f := ⟨y 0, y 1, y 2, y 3, eq_ix4 y⟩
  obtain rfl : y0 = 0 := Subsingleton.elim _ _
  have hr := r.isLt
  have hj : ((cfg0.win 5).blk t).view.emb (ix4 (0 : Fin 1) r s f)
      = ix4 (⟨t.val / 37, by have := t_lt t; omega⟩ : Fin 16) (⟨t.val % 37 * 6 + r.val, by omega⟩ : Fin 222) s f := by
    obtain ⟨e0, e1, e2, e3, -⟩ := idx_facts t
    funext a; apply Fin.ext
    match a with
    | ⟨0, _⟩ => show win0_5.index t (0 : Fin 4) * 1 + 1 * 0 = t.val / 37; omega
    | ⟨1, _⟩ => show win0_5.index t (1 : Fin 4) * 6 + 1 * r.val = t.val % 37 * 6 + r.val; omega
    | ⟨2, _⟩ => show win0_5.index t (2 : Fin 4) * 222 + 1 * s.val = s.val; omega
    | ⟨3, _⟩ => show win0_5.index t (3 : Fin 4) * 32 + 1 * f.val = f.val; omega
  show outBlock (F := Ideal) (stg0 m c t) (iblk m c 1 t) (iblk m c 2 t) (iblk m c 3 t) (iblk m c 4 t) (ix4 (0 : Fin 1) r s f)
    = G m c (((cfg0.win 5).blk t).view.emb (ix4 (0 : Fin 1) r s f))
  rw [hj, outBlock_apply]
  refine Eq.trans ?_ (conv_eq_chain _ _ _ _).symm
  simp only [tap_eq m c t r s f, bblk_apply m c t f]

/-! ## The whole array -/

/-- An output index is in point t's block iff each coordinate is in the block's range on its axis. -/
theorem mem_blk (t : Fin cfg0.N) (i : S16x222x222x32.Idx) :
    i ∈ ((cfg0.win 5).blk t).view.set ↔ ∀ a : Fin 4, win0_5.index t a * S1x6x222x32.size a ≤ (i a).val ∧ (i a).val < win0_5.index t a * S1x6x222x32.size a + S1x6x222x32.size a := by
  show i ∈ ((View.whole main_v3).slice (win0_5.rect t)).set ↔ _
  rw [View.set_slice_whole, Rect.mem_set_unit]
  exact Iff.rfl

/-- Output entry (n, r, ·, ·) lies in the block of point 37·n + r / 6, which writes it back. -/
theorem cover (i : S16x222x222x32.Idx) : ∃ t : Fin cfg0.N, (cfg0.win 5).flush t = true ∧ i ∈ ((cfg0.win 5).blk t).view.set := by
  have h0 : (i 0).val < 16 := (i 0).isLt
  have h1 : (i 1).val < 222 := (i 1).isLt
  have h2 : (i 2).val < 222 := (i 2).isLt
  have h3 : (i 3).val < 32 := (i 3).isLt
  have hlt : (i 0).val * 37 + (i 1).val / 6 < cfg0.N := Nat.lt_of_lt_of_eq (by omega : (i 0).val * 37 + (i 1).val / 6 < 592) N_0.symm
  refine ⟨⟨(i 0).val * 37 + (i 1).val / 6, hlt⟩, flush0_5 _, ?_⟩
  rw [mem_blk]
  obtain ⟨e0, e1, e2, e3, -⟩ := idx_facts ⟨(i 0).val * 37 + (i 1).val / 6, hlt⟩
  have ht : (⟨(i 0).val * 37 + (i 1).val / 6, hlt⟩ : Fin cfg0.N).val = (i 0).val * 37 + (i 1).val / 6 := rfl
  rw [ht] at e0 e1
  intro a
  match a with
  | ⟨0, _⟩ => show win0_5.index _ (0 : Fin 4) * 1 ≤ (i 0).val ∧ (i 0).val < win0_5.index _ (0 : Fin 4) * 1 + 1; omega
  | ⟨1, _⟩ => show win0_5.index _ (1 : Fin 4) * 6 ≤ (i 1).val ∧ (i 1).val < win0_5.index _ (1 : Fin 4) * 6 + 6; omega
  | ⟨2, _⟩ => show win0_5.index _ (2 : Fin 4) * 222 ≤ (i 2).val ∧ (i 2).val < win0_5.index _ (2 : Fin 4) * 222 + 222; omega
  | ⟨3, _⟩ => show win0_5.index _ (3 : Fin 4) * 32 ≤ (i 3).val ∧ (i 3).val < win0_5.index _ (3 : Fin 4) * 32 + 32; omega

/-- THE OUTPUT ARRAY after the run is the convolution. -/
theorem final (c : Dev nD) : (dats m 0 c).arrAt 5 cfg0.N = G m c :=
  (dats m 0 c).arrAt_eq_of_cover 5 (G m c) (fun t _ => flushed_eq m c t) cover

/-! ## The run, read -/

/-- Every weakly fair execution terminates with the result array at the convolution of the arguments, the
    arguments unchanged. -/
theorem run : θ_run defs (onTc (τ := τ) (main (F := Ideal))) ⟨m, fun _ => 0, ρ⟩ fun r => ∀ c : Dev nD,
      r.2.mem ((c.tc : Thread nD τ).loc main_v3) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).1 5).trans (final m c),
     ((h c).1 0).trans (((dats m 0 c).arrAt_in 0 rfl _).trans ((A_eq m c 0).trans (V_main_arg0 m c))),
     ((h c).2 main_arg1 (Pipeline.mem_restRefs_of main_arg1 rfl (by decide))).trans (V_main_arg1 m c),
     ((h c).1 4).trans (((dats m 0 c).arrAt_in 4 rfl _).trans ((A_eq m c 4).trans (V_main_arg2 m c)))⟩) (run_main m ρ)

end Cert.KernelIdeal.ConvValue

end
-- ==== Proof.RefConv.lean ====
/-
  The reference computes the 3×3 valid convolution with bias.

  The reference takes the nine shifted windows x[n, r + kh, s + kw, ·] of the input (kh, kw < 3), joins them along the
  channel axis into 288 columns — window 3·kh + kw occupies columns 32·(3·kh + kw) … 32·(3·kh + kw) + 31 —, contracts
  the 288 columns against row f of the weight read as a [32, 288] matrix, and adds the bias of filter f. Column
  k = kh·96 + kw·32 + c of the joined array is x[n, r + kh, s + kw, c], and entry (f, k) of the matrix is word
  f·288 + k of the flat weight, so splitting k into (kh, kw, c) turns the sum over 288 columns into the triple sum that
  defines the convolution. The split is a bijection Fin 3 × Fin 3 × Fin 32 ≃ Fin 288, and a finite sum in a commutative
  monoid is unchanged by reindexing along a bijection.
-/
import proofs.«178870_j77816217469233_2_alg».proof.Proof.Gen.ReferenceIdeal.Read
import proofs.«178870_j77816217469233_2_alg».proof.Proof.ConvSpec
import Idealize.ShloMosaic.Lib.Pipeline.Value
import Idealize.ShloMosaic.Lib.ValueIdx
import Idealize.ShloMosaic.PureOps.Ideal.Laws

noncomputable section

namespace Cert.RefConv

open Cert.ReferenceIdeal Cert.ReferenceIdeal.Gen Cert.ReferenceIdeal.Read Cert.ConvSpec
open Idealize.ShloMosaic Idealize.ShloMosaic.ValueIdx Idealize.ShloMosaic.StableHlo

/-- The position of tap (kh, kw), channel c among the 288 joined columns, as a bijection: the nine slices are joined in
    the order 3·kh + kw, each 32 channels wide, so the column is kh·96 + kw·32 + c. -/
def colEquiv : Fin 3 × Fin 3 × Fin 32 ≃ Fin 288 where
  toFun p := ⟨p.1.val * 96 + p.2.1.val * 32 + p.2.2.val, by
    have := p.1.isLt; have := p.2.1.isLt; have := p.2.2.isLt; omega⟩
  invFun k := (⟨k.val / 96, by have := k.isLt; omega⟩, ⟨k.val % 96 / 32, by omega⟩, ⟨k.val % 32, by omega⟩)
  left_inv := by
    rintro ⟨kh, kw, c⟩
    have := kh.isLt; have := kw.isLt; have := c.isLt
    refine Prod.ext (Fin.ext ?_) (Prod.ext (Fin.ext ?_) (Fin.ext ?_))
    · show (kh.val * 96 + kw.val * 32 + c.val) / 96 = kh.val; omega
    · show (kh.val * 96 + kw.val * 32 + c.val) % 96 / 32 = kw.val; omega
    · show (kh.val * 96 + kw.val * 32 + c.val) % 32 = c.val; omega
  right_inv := by
    intro k
    have := k.isLt
    refine Fin.ext ?_
    show k.val / 96 * 96 + k.val % 96 / 32 * 32 + k.val % 32 = k.val
    omega

/-- The joined patches read at an index whose last coordinate is column kh·96 + kw·32 + c: the input under tap
    (kh, kw) at channel c, that is at row r + kh and column s + kw. Slice number 3·kh + kw holds that column, after
    32·(3·kh + kw) columns of the slices before it, and starts at offset (kh, kw) of the input. -/
theorem patches_apply (x0 : (⟨S16x224x224x32, .f32⟩ : BufTy).Contents (Elt Ideal)) (j : S16x222x222x288.Idx)
    (n : Fin 16) (r s : Fin 222) (kh kw : Fin 3) (c : Fin 32)
    (h0 : (j 0).val = n.val) (h1 : (j 1).val = r.val) (h2 : (j 2).val = s.val)
    (h3 : (j 3).val = kh.val * 96 + kw.val * 32 + c.val) :
    val_main_v9 (F := Ideal) x0 j = x0 (tap n r s kh kw c) := by
  unfold val_main_v9
  have hi : ∀ b : Fin S16x222x222x32.rank, b.cast (rfl : S16x222x222x32.rank = S16x222x222x288.rank) ≠ 3 →
      ((ix4 n r s c : S16x222x222x32.Idx) b).val = (j (b.cast rfl)).val := fun b hb =>
    match b with
    | ⟨0, _⟩ => h0.symm
    | ⟨1, _⟩ => h1.symm
    | ⟨2, _⟩ => h2.symm
    | ⟨3, _⟩ => absurd rfl hb
  match kh, kw with
  | ⟨0, _⟩, ⟨0, _⟩ =>
    refine (concatenate_apply_piece 3 _ _ j 0 (by show 0 < 9; omega) S16x222x222x32 (val_main_v0 (F := Ideal) x0) rfl rfl
      0 rfl (ix4 n r s c) hi (by rw [h3]; show 0 + c.val = 0 * 96 + 0 * 32 + c.val; omega)).trans ?_
    rw [val_main_v0_apply]
    exact congrArg x0 (funext fun a => match a with
      | ⟨0, _⟩ => rfl
      | ⟨1, _⟩ => Fin.ext (by show r.val = r.val + 0; omega)
      | ⟨2, _⟩ => Fin.ext (by show s.val = s.val + 0; omega)
      | ⟨3, _⟩ => rfl)
  | ⟨0, _⟩, ⟨1, _⟩ =>
    refine (concatenate_apply_piece 3 _ _ j 1 (by show 1 < 9; omega) S16x222x222x32 (val_main_v1 (F := Ideal) x0) rfl rfl
      32 rfl (ix4 n r s c) hi (by rw [h3]; show 32 + c.val = 0 * 96 + 1 * 32 + c.val; omega)).trans ?_
    rw [val_main_v1_apply]
    exact congrArg x0 (funext fun a => match a with
      | ⟨0, _⟩ => rfl
      | ⟨1, _⟩ => Fin.ext (by show r.val = r.val + 0; omega)
      | ⟨2, _⟩ => Fin.ext (by show 1 + s.val = s.val + 1; omega)
      | ⟨3, _⟩ => rfl)
  | ⟨0, _⟩, ⟨2, _⟩ =>
    refine (concatenate_apply_piece 3 _ _ j 2 (by show 2 < 9; omega) S16x222x222x32 (val_main_v2 (F := Ideal) x0) rfl rfl
      64 rfl (ix4 n r s c) hi (by rw [h3]; show 64 + c.val = 0 * 96 + 2 * 32 + c.val; omega)).trans ?_
    rw [val_main_v2_apply]
    exact congrArg x0 (funext fun a => match a with
      | ⟨0, _⟩ => rfl
      | ⟨1, _⟩ => Fin.ext (by show r.val = r.val + 0; omega)
      | ⟨2, _⟩ => Fin.ext (by show 2 + s.val = s.val + 2; omega)
      | ⟨3, _⟩ => rfl)
  | ⟨1, _⟩, ⟨0, _⟩ =>
    refine (concatenate_apply_piece 3 _ _ j 3 (by show 3 < 9; omega) S16x222x222x32 (val_main_v3 (F := Ideal) x0) rfl rfl
      96 rfl (ix4 n r s c) hi (by rw [h3]; show 96 + c.val = 1 * 96 + 0 * 32 + c.val; omega)).trans ?_
    rw [val_main_v3_apply]
    exact congrArg x0 (funext fun a => match a with
      | ⟨0, _⟩ => rfl
      | ⟨1, _⟩ => Fin.ext (by show 1 + r.val = r.val + 1; omega)
      | ⟨2, _⟩ => Fin.ext (by show s.val = s.val + 0; omega)
      | ⟨3, _⟩ => rfl)
  | ⟨1, _⟩, ⟨1, _⟩ =>
    refine (concatenate_apply_piece 3 _ _ j 4 (by show 4 < 9; omega) S16x222x222x32 (val_main_v4 (F := Ideal) x0) rfl rfl
      128 rfl (ix4 n r s c) hi (by rw [h3]; show 128 + c.val = 1 * 96 + 1 * 32 + c.val; omega)).trans ?_
    rw [val_main_v4_apply]
    exact congrArg x0 (funext fun a => match a with
      | ⟨0, _⟩ => rfl
      | ⟨1, _⟩ => Fin.ext (by show 1 + r.val = r.val + 1; omega)
      | ⟨2, _⟩ => Fin.ext (by show 1 + s.val = s.val + 1; omega)
      | ⟨3, _⟩ => rfl)
  | ⟨1, _⟩, ⟨2, _⟩ =>
    refine (concatenate_apply_piece 3 _ _ j 5 (by show 5 < 9; omega) S16x222x222x32 (val_main_v5 (F := Ideal) x0) rfl rfl
      160 rfl (ix4 n r s c) hi (by rw [h3]; show 160 + c.val = 1 * 96 + 2 * 32 + c.val; omega)).trans ?_
    rw [val_main_v5_apply]
    exact congrArg x0 (funext fun a => match a with
      | ⟨0, _⟩ => rfl
      | ⟨1, _⟩ => Fin.ext (by show 1 + r.val = r.val + 1; omega)
      | ⟨2, _⟩ => Fin.ext (by show 2 + s.val = s.val + 2; omega)
      | ⟨3, _⟩ => rfl)
  | ⟨2, _⟩, ⟨0, _⟩ =>
    refine (concatenate_apply_piece 3 _ _ j 6 (by show 6 < 9; omega) S16x222x222x32 (val_main_v6 (F := Ideal) x0) rfl rfl
      192 rfl (ix4 n r s c) hi (by rw [h3]; show 192 + c.val = 2 * 96 + 0 * 32 + c.val; omega)).trans ?_
    rw [val_main_v6_apply]
    exact congrArg x0 (funext fun a => match a with
      | ⟨0, _⟩ => rfl
      | ⟨1, _⟩ => Fin.ext (by show 2 + r.val = r.val + 2; omega)
      | ⟨2, _⟩ => Fin.ext (by show s.val = s.val + 0; omega)
      | ⟨3, _⟩ => rfl)
  | ⟨2, _⟩, ⟨1, _⟩ =>
    refine (concatenate_apply_piece 3 _ _ j 7 (by show 7 < 9; omega) S16x222x222x32 (val_main_v7 (F := Ideal) x0) rfl rfl
      224 rfl (ix4 n r s c) hi (by rw [h3]; show 224 + c.val = 2 * 96 + 1 * 32 + c.val; omega)).trans ?_
    rw [val_main_v7_apply]
    exact congrArg x0 (funext fun a => match a with
      | ⟨0, _⟩ => rfl
      | ⟨1, _⟩ => Fin.ext (by show 2 + r.val = r.val + 2; omega)
      | ⟨2, _⟩ => Fin.ext (by show 1 + s.val = s.val + 1; omega)
      | ⟨3, _⟩ => rfl)
  | ⟨2, _⟩, ⟨2, _⟩ =>
    refine (concatenate_apply_piece 3 _ _ j 8 (by show 8 < 9; omega) S16x222x222x32 (val_main_v8 (F := Ideal) x0) rfl rfl
      256 rfl (ix4 n r s c) hi (by rw [h3]; show 256 + c.val = 2 * 96 + 2 * 32 + c.val; omega)).trans ?_
    rw [val_main_v8_apply]
    exact congrArg x0 (funext fun a => match a with
      | ⟨0, _⟩ => rfl
      | ⟨1, _⟩ => Fin.ext (by show 2 + r.val = r.val + 2; omega)
      | ⟨2, _⟩ => Fin.ext (by show 2 + s.val = s.val + 2; omega)
      | ⟨3, _⟩ => rfl)

/-- The reference is the convolution: its contraction over the 288 joined columns, regrouped by tap row, tap column and
    channel, is the triple sum of input times weight, and the broadcast bias is the bias of the output's filter. -/
theorem ref_eq_conv (x0 : (⟨Cert.ReferenceIdeal.S16x224x224x32, .f32⟩ : BufTy).Contents (Elt Ideal))
    (x1 : (⟨Cert.ReferenceIdeal.S9216, .f32⟩ : BufTy).Contents (Elt Ideal))
    (x2 : (⟨Cert.ReferenceIdeal.S32, .f32⟩ : BufTy).Contents (Elt Ideal)) :
    Cert.ReferenceIdeal.Read.val_main_v14 (F := Ideal) x0 x1 x2 = Cert.ConvSpec.conv x0 x1 x2 := by
  funext j
  have hsum : (∑ k : Fin 288, (val_main_v9 (F := Ideal) x0) (lidx_main_v11 j k) * (val_main_v10 (F := Ideal) x1) (ridx_main_v11 j k))
      = ∑ kh : Fin 3, ∑ kw : Fin 3, tapSum x0 x1 (j 0) (j 1) (j 2) (j 3) kh kw := by
    rw [← Equiv.sum_comp colEquiv, Fintype.sum_prod_type]
    refine Finset.sum_congr rfl fun kh _ => ?_
    rw [Fintype.sum_prod_type]
    refine Finset.sum_congr rfl fun kw _ => ?_
    unfold tapSum
    refine Finset.sum_congr rfl fun c _ => ?_
    rw [patches_apply x0 (lidx_main_v11 j (colEquiv (kh, kw, c))) (j 0) (j 1) (j 2) kh kw c rfl rfl rfl rfl,
      val_main_v10_apply]
    refine congrArg (x0 (tap (j 0) (j 1) (j 2) kh kw c) * ·) (congrArg x1 (funext fun a => ?_))
    match a with
    | ⟨0, _⟩ =>
      refine Fin.ext ?_
      show (j 3).val * 288 + (kh.val * 96 + kw.val * 32 + c.val) = (j 3).val * 288 + kh.val * 96 + kw.val * 32 + c.val
      omega
  have hb : x2 (idx_main_v12 (idx_main_v13 j)) = x2 (ix1 (j 3)) :=
    congrArg x2 (funext fun a => match a with | ⟨0, _⟩ => rfl)
  rw [val_main_v14_apply, val_main_v11_apply, val_main_v13_apply, val_main_v12_apply, Ideal.addf_def, hsum, hb]
  rfl

end Cert.RefConv

end
-- ==== Proof.lean ====
/-
  A 3×3 valid convolution with bias over a [16, 224, 224, 32] input (32 input channels, 32 filters, stride 1), as
  a tiled kernel and as a patch-matrix product, are one function on the extended reals.

  The kernel walks a grid of (batch, tile of six output rows). At a point it stacks the six input rows of the tile and
  the two rows below it, and for each of the nine stencil taps (kh, kw) multiplies the [6·222, 32] matrix of the
  stacked rows shifted by (kh, kw) with the [32, 32] slice of the weight table for that tap, adding the nine products
  one after the other onto zero and then the bias. The reference gathers, for every output position, the nine shifted
  input slices side by side into a row of 288 = 9·32 patch entries, and multiplies the [·, 288] patch matrix by the
  flat weight read as [32, 288], then adds the bias. Index by index both are

      Σ_{kh < 3} Σ_{kw < 3} Σ_{c < 32}  x[n, r + kh, s + kw, c] · w[f·288 + kh·96 + kw·32 + c]  +  b[f]

  (`ConvSpec.conv`): the kernel's nine partial sums are the outer double sum written out in order (`conv_eq_chain`),
  the reference's single sum over 288 columns is the triple sum regrouped, column k = kh·96 + kw·32 + c (`RefConv`).
  A change of float format is the identity on the extended reals, and a sum of extended reals may be regrouped
  freely, so nothing asks the inputs to be finite: the precondition is not used.

  The frames: each program runs to the end without a fault and leaves its three arguments as launched. For the two
  kernel programs this is the run of the one pipelined region (`ConvRun`, at the word-level instance and at the
  ideal one); for the reference, its run as a straight line of host operations. The kernel's idealization rewrote
  nothing, so there is nothing to preserve.
-/
import proofs.«178870_j77816217469233_2_alg».proof.Defs
import proofs.«178870_j77816217469233_2_alg».proof.Proof.Gen.Kernel
import proofs.«178870_j77816217469233_2_alg».proof.Proof.Gen.KernelIdeal
import proofs.«178870_j77816217469233_2_alg».proof.Proof.Gen.ReferenceIdeal
import proofs.«178870_j77816217469233_2_alg».proof.Proof.Gen.Pre_finite_inputs
import proofs.«178870_j77816217469233_2_alg».proof.Proof.Gen.ReferenceIdeal.Run
import proofs.«178870_j77816217469233_2_alg».proof.Proof.Gen.ReferenceIdeal.Read
import proofs.«178870_j77816217469233_2_alg».proof.Proof.BitsRun
import proofs.«178870_j77816217469233_2_alg».proof.Proof.IdealRun
import proofs.«178870_j77816217469233_2_alg».proof.Proof.IdealValue
import proofs.«178870_j77816217469233_2_alg».proof.Proof.RefConv
import Idealize.ShloMosaic.Adequacy
import Idealize.ShloMosaic.Init

noncomputable section

namespace Cert.Proof

open Idealize.ShloMosaic Idealize.SL.Sem

theorem frame_kernel : @Cert.frame_Kernel Cert.Kernel.Gen.facts Cert.Pre_finite_inputs.Gen.facts :=
  fun m ρ _ => Cert.Kernel.ConvRun.frame m ρ

theorem frame_kernelIdeal : @Cert.frame_KernelIdeal Cert.KernelIdeal.Gen.facts Cert.Pre_finite_inputs.Gen.facts :=
  fun m ρ _ => Cert.KernelIdeal.ConvRun.frame m ρ

theorem frame_referenceIdeal : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- Both runs end with the result array at the convolution of the (agreeing) arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.ConvValue.G m c, Cert.KernelIdeal.ConvValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.RefConv.ref_eq_conv, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
